-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S_ : Shape := ⟨0, ![]⟩
abbrev S1000000x128 : Shape := ⟨2, ![1000000, 128]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  reducesTo_S_S_d : S_.ReducesTo [] S_

variable [Facts]

def fn {F : FTy → Type} [FloatOps F] (main_arg0 : IVec S_ 32) (main_arg1 : FVec F S1000000x128 .f32) : IVec S_ 1 :=
  let main_v0 : FVec F S1000000x128 .f32 := Host.absf main_arg1
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_c_0 : IVec S_ 32 := constantI S_ 32 777#32
  let main_v4 : IVec S_ 1 := cmpi .sge main_arg0 main_c_0
  let main_c_1 : IVec S_ 32 := constantI S_ 32 777#32
  let main_v5 : IVec S_ 1 := cmpi .sle main_arg0 main_c_1
  let main_v6 : IVec S_ 1 := andi main_v4 main_v5
  let main_c_2 : IVec S_ 1 := constantI S_ 1 1#1
  let main_v7 : IVec S_ 1 := (fun x v => Host.reduce IntOp.andi x v reducesTo_S_S_d h_S_) main_v6 main_c_2
  let main_v8 : IVec S_ 1 := andi main_v3 main_v7
  main_v8
-- ==== Kernel.lean ====
abbrev S_ : Shape := ⟨0, ![]⟩
abbrev S1000000x128 : Shape := ⟨2, ![1000000, 128]⟩
abbrev S1 : Shape := ⟨1, ![1]⟩
abbrev S1x128 : Shape := ⟨2, ![1, 128]⟩
abbrev S128 : Shape := ⟨1, ![128]⟩

abbrev nBuf : Table → Nat
  | .hbm => 5
  | .local .scScalar .smem => 1
  | _ => 0

abbrev bufTy : (tb : Table) → Fin (nBuf tb) → BufTy
  | .hbm, ⟨0, _⟩ => ⟨S_, .i32⟩
  | .hbm, ⟨1, _⟩ => ⟨S1000000x128, .f32⟩
  | .hbm, ⟨2, _⟩ => ⟨S1, .i32⟩
  | .hbm, ⟨3, _⟩ => ⟨S1x128, .f32⟩
  | .hbm, ⟨4, _⟩ => ⟨S128, .f32⟩
  | .local .scScalar .smem, ⟨0, _⟩ => ⟨S1, .i32⟩
  | _, _ => ⟨S_, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scs : Ref sig .scScalar := ⟨.hbm, 2, rfl⟩
abbrev main_arg1_scs : Ref sig .scScalar := ⟨.hbm, 1, rfl⟩
abbrev main_v1_scs : Ref sig .scScalar := ⟨.hbm, 3, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0_r1 : BitVec 32 := 0#32
  ![v1.toNat, 0]

def k0_chk1 (v1 : BitVec 32) : Prop :=
  (∀ a, (k0_off1 v1) a + S1x128.size a ≤ S1000000x128.size a)
instance k0_chk1.dec : ∀ (v1 : BitVec 32), Decidable (k0_chk1 v1) := fun v1 => decidable_of_iff' _ (Iff.of_eq (k0_chk1.eq_1 v1))
theorem k0_off1_inb : ∀ (v1 : BitVec 32) (k0_hw1 : k0_chk1 v1), ∀ a, (k0_off1 v1) a + S1x128.size a ≤ S1000000x128.size a := fun v1 k0_hw1 => k0_hw1

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))

class Facts₀ : Prop where
  shapeCasts_S_S1 : S_.ShapeCasts S1
  inb_S1_S1_0 : ∀ a, (![0] : Fin 1 → Nat) a + S1.size a ≤ S1.size a
  numel1_S1 : S1.numel = 1
  shapeCasts_S1x128_S128 : S1x128.ShapeCasts S128
  hcc0_scoped0 : 0 + S_.numel ≤ 2
  hcc0_scoped1 : 1 + S_.numel ≤ 2
  hscKind : ∀ q, scKind q ≠ .tc
  hscCore : ∀ q, scNCore q ≤ τ.nSC
  hscSub : ∀ q, scNSub q ≤ τ.nSub
  hcore0 : grid0.bound 0 ≤ τ.nSC

variable [Facts₀]

abbrev cc0_scoped0 : DmaSems sig S_ := SemArray.consecutive 0 S_ hcc0_scoped0
abbrev cc0_scoped1 : DmaSems sig S_ := SemArray.consecutive 1 S_ hcc0_scoped1

class Facts : Prop extends Facts₀ where

variable [Facts]
-- ==== ReferenceIdeal.lean ====
abbrev S_ : Shape := ⟨0, ![]⟩
abbrev S1000000x128 : Shape := ⟨2, ![1000000, 128]⟩
abbrev S1 : Shape := ⟨1, ![1]⟩
abbrev S1x1 : Shape := ⟨2, ![1, 1]⟩
abbrev S1x128 : Shape := ⟨2, ![1, 128]⟩
abbrev S128 : Shape := ⟨1, ![128]⟩

abbrev nBuf : Space → Nat
  | .hbm => 26
  | .vmem => 0
  | .smem => 0
  | _ => 0

abbrev bufTy : (tb : Table) → Fin (tcTables nBuf tb) → BufTy
  | .hbm, ⟨0, _⟩ => ⟨S_, .i32⟩
  | .hbm, ⟨1, _⟩ => ⟨S1000000x128, .f32⟩
  | .hbm, ⟨2, _⟩ => ⟨S1, .i32⟩
  | .hbm, ⟨3, _⟩ => ⟨S_, .i32⟩
  | .hbm, ⟨4, _⟩ => ⟨S1, .i32⟩
  | .hbm, ⟨5, _⟩ => ⟨S1, .i1⟩
  | .hbm, ⟨6, _⟩ => ⟨S_, .i32⟩
  | .hbm, ⟨7, _⟩ => ⟨S1, .i32⟩
  | .hbm, ⟨8, _⟩ => ⟨S1, .i32⟩
  | .hbm, ⟨9, _⟩ => ⟨S1, .i32⟩
  | .hbm, ⟨10, _⟩ => ⟨S1x1, .i32⟩
  | .hbm, ⟨11, _⟩ => ⟨S1, .i32⟩
  | .hbm, ⟨12, _⟩ => ⟨S_, .i32⟩
  | .hbm, ⟨13, _⟩ => ⟨S1x1, .i32⟩
  | .hbm, ⟨14, _⟩ => ⟨S1x1, .i1⟩
  | .hbm, ⟨15, _⟩ => ⟨S1x1, .i32⟩
  | .hbm, ⟨16, _⟩ => ⟨S1x1, .i1⟩
  | .hbm, ⟨17, _⟩ => ⟨S1x1, .i1⟩
  | .hbm, ⟨18, _⟩ => ⟨S_, .i1⟩
  | .hbm, ⟨19, _⟩ => ⟨S1, .i1⟩
  | .hbm, ⟨20, _⟩ => ⟨S1x128, .f32⟩
  | .hbm, ⟨21, _⟩ => ⟨S1x128, .i1⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S128, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_c_3 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x128_0 : S1.BroadcastsInDim S1x128 (![0] : Fin 1 → Fin S1x128.rank)
  bcast_S_S1x128 : S_.BroadcastsInDim S1x128 (![] : Fin 0 → Fin S1x128.rank)
  shapeCasts_S1x128_S128 : S1x128.ShapeCasts S128
  gather_S1000000x128_S1x1_S1x128_1_0_n_n_0_1_1128_wf : GatherDims.WF S1000000x128 S1x1 S1x128 [1] [0] [] [0] [] 1 ![1, 128]

variable [Facts₀]

def gather_S1000000x128_S1x1_S1x128_1_0_n_n_0_1_1128 : GatherDims S1000000x128 S1x1 S1x128 where
  offsetDims := [1]
  collapsedSliceDims := [0]
  operandBatchingDims := []
  startIndicesBatchingDims := []
  startIndexMap := [0]
  indexVectorDim := 1
  sliceSizes := ![1, 128]
  wf := gather_S1000000x128_S1x1_S1x128_1_0_n_n_0_1_1128_wf

class Facts : Prop extends Facts₀ where

variable [Facts]
-- ==== Proof.Spec.lean ====
/-
  What both programs compute: entry `j` of the result is entry `(777, j)` of the table — the one row the
  index names, read off as a vector of 128 entries. Stated once over any element type, so that the kernel's
  copy of the row and the reference's gather of it are compared against the same function.
-/
import Idealize.ShloMosaic.PureOps
import Idealize.ShloMosaic.Lib.ValueIdx

namespace Cert.Proof.Spec

open Idealize.ShloMosaic Idealize.ShloMosaic.ValueIdx

/-- The table: a million rows of 128 entries. -/
abbrev Tbl : Shape := ⟨2, ![1000000, 128]⟩
/-- One row kept as a 1 × 128 matrix. -/
abbrev RowM : Shape := ⟨2, ![1, 128]⟩
/-- One row as a vector of 128 entries. -/
abbrev Row : Shape := ⟨1, ![128]⟩
/-- The index as a one-entry vector. -/
abbrev One : Shape := ⟨1, ![1]⟩

/-- The row the index names. -/
abbrev r777 : Fin 1000000 := ⟨777, by decide⟩

/-- The one-entry index vector holding 777. -/
def idx777 : IVec One 32 := fun _ => 777#32

/-- Row 777 of a table as a 1 × 128 matrix: entry `(0, j)` is the table's entry `(777, j)`. -/
def rowM {α : Type} (t : Tbl.Idx → α) : RowM.Idx → α := fun y => t (ix2 r777 (y 1 : Fin 128))

/-- Row 777 of a table as a vector: entry `j` is the table's entry `(777, j)`. -/
def row777 {α : Type} (t : Tbl.Idx → α) : Row.Idx → α := fun j => t (ix2 r777 (j 0 : Fin 128))

theorem row777_apply {α : Type} (t : Tbl.Idx → α) (j : Fin 128) : row777 t (ix1 j) = t (ix2 r777 j) := rfl
theorem rowM_apply {α : Type} (t : Tbl.Idx → α) (a : Fin 1) (j : Fin 128) : rowM t (ix2 a j) = t (ix2 r777 j) := rfl

end Cert.Proof.Spec
-- ==== Proof.IdealLaunch.lean ====
/-
  The lookup kernel as the launch theorem for SparseCore programs sees it: one scalar-subcore call on one
  SparseCore, whose sequencer copies the one-entry index array into its scalar memory, reads the word, and copies
  the table row the word names into the result buffer. Here: the configuration, the ghost state (the handshakes'
  rounds beside the transfers' counters), the arrays' locations, and what the call hands the sequencer and takes
  back — the index array holding 777 and the table, both unchanged, and the row buffer, which comes back holding
  row 777 of the table.
-/
import proofs.«202049_g85220741087307_cont_9to1_m_1159_10_alg».proof.Defs
import proofs.«202049_g85220741087307_cont_9to1_m_1159_10_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«202049_g85220741087307_cont_9to1_m_1159_10_alg».proof.Proof.Gen.KernelIdeal
import proofs.«202049_g85220741087307_cont_9to1_m_1159_10_alg».proof.Proof.Gen.KernelIdeal.Skeleton

noncomputable section

namespace Cert.Proof.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The scalar index argument. -/
abbrev wLoc (d : Dev nD) : Loc nD τ sig := (SparseCore.T d).loc main_arg0
/-- The table. -/
abbrev tbLoc (d : Dev nD) : Loc nD τ sig := (SparseCore.T d).loc main_arg1
/-- The index as a one-entry array (the reshape of the scalar argument). -/
abbrev ixLoc (d : Dev nD) : Loc nD τ sig := (SparseCore.T d).loc main_v0
/-- The kernel's result: one row as a 1 × 128 matrix. -/
abbrev rwLoc (d : Dev nD) : Loc nD τ sig := (SparseCore.T d).loc main_v1
/-- The program's result: that row as a vector. -/
abbrev outLoc (d : Dev nD) : Loc nD τ sig := (SparseCore.T d).loc main_v2

/-- The one-entry index array holding 777. -/
abbrev ixVal (d : Dev nD) : Buf (Elt F) (ixLoc d) := Spec.idx777
/-- Row 777 of the launch table, as the kernel's 1 × 128 result. -/
abbrev rwVal (d : Dev nD) : Buf (Elt F) (rwLoc d) := Spec.rowM (m (tbLoc d))
/-- Row 777 of the launch table, as the program's result vector. -/
abbrev outVal (d : Dev nD) : Buf (Elt F) (outLoc d) := Spec.row777 (m (tbLoc d))

abbrev ixPts (d : Dev nD) : sProp 𝕄 := ixLoc d ↦{fullShare} ixVal d
abbrev tbPts (d : Dev nD) : sProp 𝕄 := tbLoc d ↦{fullShare} m (tbLoc d)
abbrev rwPts (d : Dev nD) (f : Buf (Elt F) (rwLoc d)) : sProp 𝕄 := rwLoc d ↦{fullShare} f

/-- What the call hands the one SparseCore that runs the kernel: the index array at 777, the table at its launch
    contents, the row buffer at whatever it holds. -/
def stRes (d : Dev nD) : sProp 𝕄 := iprop(ixPts d ∗ tbPts m d ∗ ∃ f, rwPts d f)
/-- What it takes back: the same, the row buffer now at row 777 of the table. -/
def dnRes (d : Dev nD) : sProp 𝕄 := iprop(ixPts d ∗ tbPts m d ∗ rwPts d (rwVal m d))

instance stRes_storable (d : Dev nD) : BI.Storable (upEmb : UEmb _ 𝕄) (stRes m d) := by
  unfold stRes; infer_instance
instance dnRes_storable (d : Dev nD) : BI.Storable (upEmb : UEmb _ 𝕄) (dnRes m d) := by
  unfold dnRes; infer_instance

/-- The call's payloads; the kernel's proof consumes nothing of the launch's. -/
def P : (K (F := F)).Pay (nD := nD) (Val := Elt F) (Name := ℕ) (U := UU) where
  st := fun _ d _ => stRes m d
  dn := fun _ d _ => dnRes m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.LookupIdeal

end
-- ==== Proof.IdealBody.lean ====
/-
  The kernel's body on the one sequencer that runs it. The sequencer copies the one-entry index array into its
  scalar memory and waits; reads the word, which is 777; the row that word names lies inside the table; it copies
  that row of the table into the row buffer and waits. Afterwards the index array and the table are as they were,
  and entry (0, j) of the row buffer is entry (777, j) of the table.
-/
import proofs.«202049_g85220741087307_cont_9to1_m_1159_10_alg».proof.Proof.IdealLaunch

noncomputable section

namespace Cert.Proof.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "iW" => (Memref.whole Cert.KernelIdeal.main_v0_scs : Memref Cert.KernelIdeal.sig Kind.scScalar Space.hbm Cert.KernelIdeal.S1 EltTy.i32)
local notation "tW" => (Memref.whole Cert.KernelIdeal.main_arg1_scs : Memref Cert.KernelIdeal.sig Kind.scScalar Space.hbm Cert.KernelIdeal.S1000000x128 EltTy.f32)
local notation "oW" => (Memref.whole Cert.KernelIdeal.main_v1_scs : Memref Cert.KernelIdeal.sig Kind.scScalar Space.hbm Cert.KernelIdeal.S1x128 EltTy.f32)
local notation "sW" => (Memref.whole Cert.KernelIdeal.cc0_scratch0 : Memref Cert.KernelIdeal.sig Kind.scScalar Space.smem Cert.KernelIdeal.S1 EltTy.i32)

variable [FloatOps F]

section Body

variable (d : Dev nD)

def coordsS (c : Fin (grid0.bound 0)) : grid0.Coords := fun | 0 => c | ⟨_ + 1, h⟩ => absurd h (Nat.not_lt.2 (Nat.le_add_left _ _))

/-- The two transfer semaphores of the sequencer: the index copy's and the row copy's. -/
abbrev c0cell (c : Fin τ.nSC) : GSem nD τ sig := (S d c, .dma cc0_scoped0.sem)
abbrev c1cell (c : Fin τ.nSC) : GSem nD τ sig := (S d c, .dma cc0_scoped1.sem)

/-- The sequencer's scalar-memory word. -/
abbrev scRef (c : Fin τ.nSC) : DevRef τ sig := (Proc.scScalar c).devRef cc0_scratch0
abbrev scLoc (c : Fin τ.nSC) : Loc nD τ sig := (d, scRef c)

omit [FloatOps F] in
theorem ownSems0_S (c : Fin τ.nSC) :
    (ownSems0 (S d c) : sProp 𝕄) = iprop(semVal (c0cell d c) 0 ∗ semVal (c1cell d c) 0
      ∗ bigSep (((ownCells (S d c)).erase (c0cell d c)).erase (c1cell d c)) fun g => semVal g 0) := by
  unfold SparseCore.Cfg.ownSems0
  rw [SparseCore.bigSep_erase' ((mem_ownCells (g := c0cell d c)).mpr ⟨rfl, by show (SemLoc.dma cc0_scoped0.sem : SemLoc sig).isScoped .scScalar = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := c1cell d c)).mpr ⟨rfl, by show (SemLoc.dma cc0_scoped1.sem : SemLoc sig).isScoped .scScalar = true; decide⟩⟩)]

omit [FloatOps F] in
theorem ownBufs_S (c : Fin τ.nSC) :
    (ownBufs (S d c) : sProp 𝕄)
      = iprop((∃ f, scLoc d c ↦{fullShare} f) ∗ bigSep ((ownRefs (τ := τ) (.scScalar c)).erase (scRef c)) fun b => iprop(∃ f, ((d, b) : Loc nD τ sig) ↦{fullShare} f)) := by
  unfold SparseCore.Cfg.ownBufs
  exact SparseCore.bigSep_erase' (SparseCore.Cfg.mem_ownRefs_of_owner (p := Proc.scScalar c) (b := scRef c) rfl)

omit [FloatOps F] in
theorem pts_i (c : Fin τ.nSC) (f : Buf (Elt F) (ixLoc d)) :
    ((iW).view.loc (S d c) ↦{fullShare} f : sProp 𝕄) = ixLoc d ↦{fullShare} f := by
  simp only [Memref.view_whole, View.set_whole]
omit [FloatOps F] in
theorem pts_t (c : Fin τ.nSC) (f : Buf (Elt F) (tbLoc d)) :
    ((tW).view.loc (S d c) ↦{fullShare} f : sProp 𝕄) = tbLoc d ↦{fullShare} f := by
  simp only [Memref.view_whole, View.set_whole]
omit [FloatOps F] in
theorem pts_o (c : Fin τ.nSC) (f : Buf (Elt F) (rwLoc d)) :
    ((oW).view.loc (S d c) ↦{fullShare} f : sProp 𝕄) = rwLoc d ↦{fullShare} f := by
  simp only [Memref.view_whole, View.set_whole]
omit [FloatOps F] in
theorem pts_s (c : Fin τ.nSC) (f : Buf (Elt F) (scLoc d c)) :
    ((sW).view.loc (S d c) ↦{fullShare} f : sProp 𝕄) = scLoc d c ↦{fullShare} f := by
  simp only [Memref.view_whole, View.set_whole]

omit [FloatOps F] in
/-- The table read through the one-row slice at a word equal to 777 is row 777: the slice's entry (a, j) is
    the table's entry (777 + a, j), and a ranges over one row. -/
theorem row_of_word (t : Buf (Elt F) (tbLoc d)) (v : BitVec 32) (hv : k0_chk1 v) (e : v = 777#32) :
    View.read (Elt F) ((tW).slice (Rect.unit (s := S1000000x128) (k0_off1 v) S1x128.size (k0_off1_inb v hv)) (fun _ => rfl)).view t
      = (Spec.rowM t : S1x128.Idx → Elt F .f32) := by
  subst e
  funext y
  show t _ = t (ValueIdx.ix2 Spec.r777 (y 1))
  congr 1
  funext a
  apply Fin.ext
  match a with
  | ⟨0, _⟩ =>
    have h0 : (y 0).val < 1 := (y 0).isLt
    show 777 + 1 * (y 0).val = 777
    omega
  | ⟨1, _⟩ =>
    show 0 + 1 * (y 1).val = (y 1).val
    omega

abbrev S0 (h : 0 < grid0.bound 0) : Thread nD τ := S d ((⟨0, h⟩ : Fin (grid0.bound 0)).castLE hcore0)

theorem body₀ (h : 0 < grid0.bound 0) (O : CellTallies nD τ sig (HIx 1)) (W : Waits sig (HIx 1)) (hO : ∀ g, O g none = 0) :
    iprop(levAts (K (F := F)).L (K (F := F)).lev ∗ emp ∗ stRes m d
        ∗ scopedBufs (S0 d h) ∗ scopedSems0 (S0 d h) ∗ owes (S0 d h) O W)
      ⊢ wp frame (wpE (defs₀ (F := F)) 𝒱₀ (S0 d h) none) Set.univ
          (cc0__scs_lookup (coordsS ⟨0, h⟩) iW (Memref.isWhole_whole _) tW (Memref.isWhole_whole _) oW (Memref.isWhole_whole _) sW (Memref.isWhole_whole _) cc0_scoped0 cc0_scoped1)
          fun _ => iprop(dnRes m d ∗ scopedBufs (S0 d h) ∗ scopedSems0 (S0 d h) ∗ ∃ W', ⌜∀ p ∈ W', p ∈ W ∨ p.2 = none⌝ ∗ owes (S0 d h) O W') := by
  simp only [cc0__scs_lookup_eq_skeleton]; unfold cc0__scs_lookup_skel
  unfold stRes
  iintro ⟨#Hlv, -, ⟨Hi, Ht, %fo, Ho⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem0, Hsem1, Hrest⟩
  ihave Hsb' := ((K (F := F)).scopedBufs_S_elim (Val := Elt F) facts d (((⟨0, h⟩ : Fin (grid0.bound 0))).castLE hcore0)) $$ Hsb
  icases Hsb' with ⟨Hob, Hsubb⟩
  ihave Hob' := (Entails.of_eq (ownBufs_S (F := F) d (((⟨0, h⟩ : Fin (grid0.bound 0))).castLE hcore0))) $$ Hob
  icases Hob' with ⟨⟨%fs, Hs⟩, Hrestb⟩
  ihave Hmw := ((K (F := F)).mayWaits_none (thr := S0 d h) hO) $$ Hlv
  ihave Hi' := (Entails.of_eq (pts_i (F := F) d (((⟨0, h⟩ : Fin (grid0.bound 0))).castLE hcore0) _).symm) $$ Hi
  ihave Ht' := (Entails.of_eq (pts_t (F := F) d (((⟨0, h⟩ : Fin (grid0.bound 0))).castLE hcore0) _).symm) $$ Ht
  ihave Ho' := (Entails.of_eq (pts_o (F := F) d (((⟨0, h⟩ : Fin (grid0.bound 0))).castLE hcore0) _).symm) $$ Ho
  ihave Hs' := (Entails.of_eq (pts_s (F := F) d (((⟨0, h⟩ : Fin (grid0.bound 0))).castLE hcore0) _).symm) $$ Hs
  sl_exec
  have hr : body₀.sl.r d h fs = 777#32 := by
    unfold body₀.sl.r
    have e1 : View.write (Elt F) (sW).view fs body₀.sl.dma0 Finset.univ = body₀.sl.dma0 := View.write_whole_univ _ _ _
    rw [e1]
    have e2 := Memref.readAt_unit_zero (Elt F) cc0_scratch0 (off := ![0]) (funext fun a => by match a with | ⟨0, _⟩ => rfl) inb_S1_S1_0 body₀.sl.dma0
    refine (congrFun e2 _).trans ?_
    unfold body₀.sl.dma0
    rfl
  have hchk : k0_chk1 (body₀.sl.r d h fs) := by rw [hr]; decide
  sl_exec
  have hrow : body₀.sl.dma0_1 m d h fs hchk = rwVal m d := by
    unfold body₀.sl.dma0_1
    exact row_of_word (F := F) d (m (tbLoc d)) _ hchk hr
  have e3 : View.write (Elt F) (oW).view fo (body₀.sl.dma0_1 m d h fs hchk) Finset.univ = rwVal m d :=
    (View.write_whole_univ _ _ _).trans hrow
  rw [e3]
  sl_step
  isplitl [Hi' Ht' Ho']
  · unfold dnRes
    isplitl [Hi']; · iapply (Entails.of_eq (pts_i (F := F) d _ _)); iexact Hi'
    isplitl [Ht']; · iapply (Entails.of_eq (pts_t (F := F) d _ _)); iexact Ht'
    iapply (Entails.of_eq (pts_o (F := F) d _ _)); iexact Ho'
  isplitl [Hs' Hrestb Hsubb]
  · iapply ((K (F := F)).scopedBufs_S_intro (Val := Elt F) facts d _)
    isplitl [Hs' Hrestb]
    · rw [ownBufs_S]
      isplitl [Hs']
      · iexists _; iapply (Entails.of_eq (pts_s (F := F) d _ _)); iexact Hs'
      · iexact Hrestb
    · iexact Hsubb
  isplitl [Hsem0 Hsem1 Hrest Hsubs]
  · iapply (SparseCore.Cfg.scopedSems0_S_intro (Val := Elt F) d _)
    isplitl [Hsem0 Hsem1 Hrest]
    · rw [ownSems0_S]
      isplitl [Hsem0]; · iexact Hsem0
      isplitl [Hsem1]; · iexact Hsem1
      iexact Hrest
    · iexact Hsubs
  iexists _; isplitr
  swap
  · iexact HO
  · ipureintro; intro p hp
    rcases Finset.mem_insert.mp hp with hp | hp
    · exact .inr (by subst hp; rfl)
    rcases Finset.mem_insert.mp hp with hp | hp
    · exact .inr (by subst hp; rfl)
    · exact .inl hp

end Body

/-! ## The launch theorem's obligation -/

theorem defs₀_scalar (c : Fin τ.nSC) :
    defs₀ (F := F) (.scScalar c) 0 ()
      = SparseCore.onCore hcore0 (fun c => cc0__scs_lookup (coordsS c) iW (Memref.isWhole_whole _) tW (Memref.isWhole_whole _) oW (Memref.isWhole_whole _) sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar-subcore obligation at the one call: the grid's one SparseCore runs `body₀`. -/
theorem scalarObl : (K (F := F)).ScalarObl (D (F := F)) 𝒱 (P m) v₀ 0 := by
  intro d c O W hO _ _
  -- the kernel owes nothing for a protocol of its own
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ stRes m d ∗ _) ⊢ wp _ _ _ _ (fun _ => iprop(dnRes m d ∗ _))
  match c with
  | ⟨0, h⟩ => exact (body₀ m d h O W hO).trans (wp_mono frame _ _ fun _ => obl_post)

end Cert.Proof.LookupIdeal

end
-- ==== Proof.IdealMain.lean ====
/-
  @main of the lookup program on the TensorCore, and the launch's ghost element. @main reshapes the scalar index into a
  one-entry array, calls the kernel on one SparseCore, and reshapes the kernel's 1 × 128 result into a vector of 128
  entries. Under the hypothesis that the index argument holds 777, the one-entry array holds 777 (a reshape of a constant
  is that constant); the call takes the index array, the table and the row buffer and gives them back with the row buffer
  at row 777 of the table; and the last reshape reads entry j of the vector at entry (0, j) of the 1 × 128 matrix, which
  is entry (777, j) of the table. The table's contents are never unfolded: they are carried through as they are.
-/
import proofs.«202049_g85220741087307_cont_9to1_m_1159_10_alg».proof.Proof.IdealLaunch
import Idealize.ShloMosaic.Lib.ValueLayout

noncomputable section

namespace Cert.Proof.LookupIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The two reshapes' values -/

/-- A one-entry array cast from the scalar holding 777 is the one-entry array holding 777. -/
theorem cast_idx (x : S_.Idx → BitVec 32) (hx : x = fun _ => 777#32) (h : S_.ShapeCasts S1) :
    shapeCast S1 x h = Spec.idx777 := by
  subst hx; rfl

/-- Row 777 kept as a 1 × 128 matrix, cast to a vector, is row 777 as a vector: entry j of the vector is entry (0, j)
    of the matrix. -/
theorem cast_row {α : Type} (t : Spec.Tbl.Idx → α) (h : S1x128.ShapeCasts S128) :
    shapeCast S128 (Spec.rowM t) h = Spec.row777 t := by
  funext j
  obtain ⟨i, rfl⟩ : ∃ i, j = ix1 i := ⟨j 0, eq_ix1 j⟩
  rw [shapeCast_1a_a_apply]
  rfl

/-! ## @main on the TensorCore -/

abbrev w' : DevRef τ sig := Proc.devRef .tc (main_arg0 : Ref sig .tc)
abbrev tb' : DevRef τ sig := Proc.devRef .tc (main_arg1 : Ref sig .tc)
abbrev ix' : DevRef τ sig := Proc.devRef .tc (main_v0 : Ref sig .tc)
abbrev rw' : DevRef τ sig := Proc.devRef .tc (main_v1 : Ref sig .tc)
abbrev out' : DevRef τ sig := Proc.devRef .tc (main_v2 : Ref sig .tc)

/-- The reshape of the scalar index into the one-entry index array. -/
abbrev opIx : HloOp τ sig (Elt F) := StableHlo.reshape main_arg0 main_v0 rfl Facts₀.shapeCasts_S_S1
/-- The reshape of the 1 × 128 row into the result vector. -/
abbrev opOut : HloOp τ sig (Elt F) := StableHlo.reshape main_v1 main_v2 rfl Facts₀.shapeCasts_S1x128_S128

/-- The TensorCore's arrays, all unscoped: the two arguments, the index array, the row buffer, the result. -/
abbrev S5 : Finset (DevRef τ sig) := {w', tb', ix', rw', out'}

omit [FloatOps F] in
theorem held_S5 (d : Dev nD) (W : Valuation τ sig (Elt F)) :
    (held (T d) S5 W : sProp 𝕄) = iprop((wLoc d ↦{fullShare} W w') ∗ (tbLoc d ↦{fullShare} W tb') ∗ (ixLoc d ↦{fullShare} W ix')
      ∗ (rwLoc d ↦{fullShare} W rw') ∗ outLoc d ↦{fullShare} W out') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((wLoc d ↦{fullShare} W main_arg0) ∗ (tbLoc d ↦{fullShare} W main_arg1) ∗ (ixLoc d ↦{fullShare} W main_v0)
      ∗ (rwLoc d ↦{fullShare} W main_v1) ∗ outLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S5 (V0 m d) := by
  rw [unscopedBufs_eq, held_S5]; rfl

/-! ### The first reshape: the index as a one-entry array -/

theorem hIx : (opIx (F := F)).bufs ⊆ S5 := show ({w', ix'} : Finset (DevRef τ sig)) ⊆ S5 by decide
theorem hOut : (opOut (F := F)).bufs ⊆ S5 := show ({rw', out'} : Finset (DevRef τ sig)) ⊆ S5 by decide

theorem V1_w (d : Dev nD) : (opIx (F := F)).result (V0 m d) w' = m (wLoc d) :=
  StableHlo.reshape_result_ne (x := main_arg0) (y := main_v0) rfl Facts₀.shapeCasts_S_S1 _ _ (V0 m d) (r := main_arg0) (by decide)
theorem V1_tb (d : Dev nD) : (opIx (F := F)).result (V0 m d) tb' = m (tbLoc d) :=
  StableHlo.reshape_result_ne (x := main_arg0) (y := main_v0) rfl Facts₀.shapeCasts_S_S1 _ _ (V0 m d) (r := main_arg1) (by decide)
theorem V1_rw (d : Dev nD) : (opIx (F := F)).result (V0 m d) rw' = m (rwLoc d) :=
  StableHlo.reshape_result_ne (x := main_arg0) (y := main_v0) rfl Facts₀.shapeCasts_S_S1 _ _ (V0 m d) (r := main_v1) (by decide)
theorem V1_out (d : Dev nD) : (opIx (F := F)).result (V0 m d) out' = m (outLoc d) :=
  StableHlo.reshape_result_ne (x := main_arg0) (y := main_v0) rfl Facts₀.shapeCasts_S_S1 _ _ (V0 m d) (r := main_v2) (by decide)
/-- The index array after the reshape: the scalar argument holds 777, so the one-entry array does. -/
theorem V1_ix (hw : ∀ d : Dev nD, m (wLoc d) = fun _ => 777#32) (d : Dev nD) : (opIx (F := F)).result (V0 m d) ix' = ixVal d :=
  (StableHlo.reshape_result main_arg0 main_v0 rfl Facts₀.shapeCasts_S_S1 _ _ (V0 m d)).trans (cast_idx (m (wLoc d)) (hw d) _)

theorem held_V1 (hw : ∀ d : Dev nD, m (wLoc d) = fun _ => 777#32) (d : Dev nD) :
    (held (T d) S5 ((opIx (F := F)).result (V0 m d)) : sProp 𝕄)
      = iprop((wLoc d ↦{fullShare} m (wLoc d)) ∗ tbPts m d ∗ ixPts d ∗ (rwLoc d ↦{fullShare} m (rwLoc d)) ∗ outLoc d ↦{fullShare} m (outLoc d)) := by
  rw [held_S5, V1_w, V1_tb, V1_ix m hw, V1_rw, V1_out]

/-! ### The call: one SparseCore takes the index array, the table and the row buffer, and gives them back -/

theorem st0_eq (d : Dev nD) : (bigSep Finset.univ fun c : Fin ((K (F := F)).nCore 0) => (P m).st 0 d c) = stRes m d := by
  show (bigSep (Finset.univ : Finset (Fin 1)) fun _ => stRes m d) = _
  rw [show (Finset.univ : Finset (Fin 1)) = {0} by decide, bigSep_singleton]
theorem dn0_eq (d : Dev nD) : (bigSep Finset.univ fun c : Fin ((K (F := F)).nCore 0) => (P m).dn 0 d c) = dnRes m d := by
  show (bigSep (Finset.univ : Finset (Fin 1)) fun _ => dnRes m d) = _
  rw [show (Finset.univ : Finset (Fin 1)) = {0} by decide, bigSep_singleton]

/-! ### The second reshape: the row as a vector -/

/-- After the call: the index array at 777, the row buffer at row 777 of the table, the rest at launch contents. -/
def V2 (d : Dev nD) : Valuation τ sig (Elt F) := Function.update (Function.update (V0 m d) ix' (ixVal d)) rw' (rwVal m d)

theorem V2_w (d : Dev nD) : V2 m d w' = m (wLoc d) :=
  (Function.update_of_ne (show w' ≠ rw' by decide) _ _).trans (Function.update_of_ne (show w' ≠ ix' by decide) _ _)
theorem V2_tb (d : Dev nD) : V2 m d tb' = m (tbLoc d) :=
  (Function.update_of_ne (show tb' ≠ rw' by decide) _ _).trans (Function.update_of_ne (show tb' ≠ ix' by decide) _ _)
theorem V2_ix (d : Dev nD) : V2 m d ix' = ixVal d :=
  (Function.update_of_ne (show ix' ≠ rw' by decide) _ _).trans (Function.update_self _ _ _)
theorem V2_rw (d : Dev nD) : V2 m d rw' = rwVal m d := Function.update_self _ _ _
theorem V2_out (d : Dev nD) : V2 m d out' = m (outLoc d) :=
  (Function.update_of_ne (show out' ≠ rw' by decide) _ _).trans (Function.update_of_ne (show out' ≠ ix' by decide) _ _)

theorem V3_w (d : Dev nD) : (opOut (F := F)).result (V2 m d) w' = m (wLoc d) :=
  (StableHlo.reshape_result_ne (x := main_v1) (y := main_v2) rfl Facts₀.shapeCasts_S1x128_S128 _ _ (V2 m d) (r := main_arg0) (by decide)).trans (V2_w m d)
theorem V3_tb (d : Dev nD) : (opOut (F := F)).result (V2 m d) tb' = m (tbLoc d) :=
  (StableHlo.reshape_result_ne (x := main_v1) (y := main_v2) rfl Facts₀.shapeCasts_S1x128_S128 _ _ (V2 m d) (r := main_arg1) (by decide)).trans (V2_tb m d)
theorem V3_ix (d : Dev nD) : (opOut (F := F)).result (V2 m d) ix' = ixVal d :=
  (StableHlo.reshape_result_ne (x := main_v1) (y := main_v2) rfl Facts₀.shapeCasts_S1x128_S128 _ _ (V2 m d) (r := main_v0) (by decide)).trans (V2_ix m d)
theorem V3_rw (d : Dev nD) : (opOut (F := F)).result (V2 m d) rw' = rwVal m d :=
  (StableHlo.reshape_result_ne (x := main_v1) (y := main_v2) rfl Facts₀.shapeCasts_S1x128_S128 _ _ (V2 m d) (r := main_v1) (by decide)).trans (V2_rw m d)
/-- The result after the reshape: the row buffer holds row 777 as a 1 × 128 matrix, so the result holds it as a vector. -/
theorem V3_out (d : Dev nD) : (opOut (F := F)).result (V2 m d) out' = outVal m d := by
  refine (StableHlo.reshape_result main_v1 main_v2 rfl Facts₀.shapeCasts_S1x128_S128 _ _ (V2 m d)).trans ?_
  show shapeCast S128 (V2 m d rw') _ = _
  rw [V2_rw]; exact cast_row _ _

theorem held_V3 (d : Dev nD) :
    (held (T d) S5 ((opOut (F := F)).result (V2 m d)) : sProp 𝕄)
      = iprop((wLoc d ↦{fullShare} m (wLoc d)) ∗ tbPts m d ∗ ixPts d ∗ rwPts d (rwVal m d) ∗ outLoc d ↦{fullShare} outVal m d) := by
  rw [held_S5, V3_w, V3_tb, V3_ix, V3_rw, V3_out]

/-- What @main leaves the claim: the two arguments at their launch contents and the result at row 777 of the table. -/
abbrev FIN (d : Dev nD) : sProp 𝕄 := iprop((wLoc d ↦{fullShare} m (wLoc d)) ∗ tbPts m d ∗ outLoc d ↦{fullShare} outVal m d)

/-- @main on device d's TensorCore: the reshape of the index (the arrays held whole), the call (from the index array, the
    table and the row buffer; back with the row buffer at row 777), the reshape of the row (the arrays held whole again);
    the two arguments kept. -/
theorem hmain (hw : ∀ d : Dev nD, m (wLoc d) = fun _ => 777#32) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index as a one-entry array
  iapply (wp_hlo_within 𝒱 (SparseCore.T d) none Set.univ (op := opIx) (S := S5) hIx (V := V0 m d)) $$ [Hb Hheld]
  · isplitl [Hb] <;> iassumption
  iintro ⟨Hb, Hheld⟩
  rw [wp_ret]; imodintro
  ihave Hh := (Entails.of_eq (held_V1 (F := F) m hw d)) $$ Hheld
  icases Hh with ⟨Hw, Htb, Hix, Hrw, Hout⟩
  -- the call: the index array, the table and the row buffer to the one SparseCore and back
  iapply ((K (F := F)).wp_run (D (F := F)) 𝒱 (EH := EH) (P := P m) κ d 0) $$ [Hst Htb Hix Hrw Hb Hw Hout]
  isplitr; · iexact Hctx
  isplitl [Hst]; · iexact Hst
  isplitl [Htb Hix Hrw]
  · rw [st0_eq]; unfold stRes
    isplitl [Hix]; · iexact Hix
    isplitl [Htb]; · iexact Htb
    iexists _; iexact Hrw
  iintro ⟨Hst, Hdn⟩
  ihave Hdn' := (Entails.of_eq (dn0_eq m d)) $$ Hdn
  unfold dnRes
  icases Hdn' with ⟨Hix, Htb, Hrw⟩
  -- the row as a vector
  iapply (wp_hlo_within 𝒱 (SparseCore.T d) none Set.univ (op := opOut) (S := S5) hOut (V := V2 m d)) $$ [Hb Hw Htb Hix Hrw Hout]
  · isplitl [Hb]; · iexact Hb
    rw [held_S5, V2_w, V2_tb, V2_ix, V2_rw, V2_out]
    isplitl [Hw]; · iexact Hw
    isplitl [Htb]; · iexact Htb
    isplitl [Hix]; · iexact Hix
    isplitl [Hrw]; · iexact Hrw
    iexact Hout
  iintro ⟨Hb, Hheld⟩
  ihave Hh := (Entails.of_eq (held_V3 (F := F) m d)) $$ Hheld
  icases Hh with ⟨Hw, Htb, -, -, Hout⟩
  rw [wp_ret]; imodintro; imodintro
  isplitl [Hst]; · iexact Hst
  isplitl [Hw]; · iexact Hw
  isplitl [Htb]; · iexact Htb
  iexact Hout

/-! ## Reading the final memory -/

def fq (d : Dev nD) (s' : Phys nD τ sig (Elt F)) : Prop :=
  s'.mem.mem (outLoc d) = outVal m d ∧ s'.mem.mem (wLoc d) = m (wLoc d) ∧ s'.mem.mem (tbLoc d) = m (tbLoc d)

theorem hfin (d : Dev nD) (s' : Phys nD τ sig (Elt F)) : iprop(FIN m d ∗ SI s') ⊢ (⌜fq m d s'⌝ : sProp 𝕄) := by
  iintro ⟨⟨Hw, Htb, Hout⟩, HSI⟩
  ihave H := (persistent_entails_right (SI_pointsTo_agree (st := s') (ℓ := wLoc d) (I := Finset.univ) (q := fullShare) (f := m (wLoc d)))) $$ [HSI Hw]
  · isplitl [HSI] <;> iassumption
  icases H with ⟨%h1, HSI, -⟩
  ihave H := (persistent_entails_right (SI_pointsTo_agree (st := s') (ℓ := tbLoc d) (I := Finset.univ) (q := fullShare) (f := m (tbLoc d)))) $$ [HSI Htb]
  · isplitl [HSI] <;> iassumption
  icases H with ⟨%h2, HSI, -⟩
  ihave H := (SI_pointsTo_agree (st := s') (ℓ := outLoc d) (I := Finset.univ) (q := fullShare) (f := outVal m d)) $$ [HSI Hout]
  · isplitl [HSI] <;> iassumption
  icases H with %h3
  ipureintro
  exact ⟨funext fun i => h3 i (Finset.mem_univ i), funext fun i => h1 i (Finset.mem_univ i), funext fun i => h2 i (Finset.mem_univ i)⟩

end Cert.Proof.LookupIdeal

end
-- ==== Proof.PreIdx.lean ====
/-
  The precondition, read back at the index word. The precondition is a conjunction of three bits: every table
  entry has absolute value below +infinity, the index word is at least 777, and it is at most 777 (both in the
  signed order on 32-bit words). Only the last two matter here: a signed word that is both at least and at most
  777 is 777, because the signed order is the order of the integers the words denote and a word is determined by
  the integer it denotes. The first conjunct, which ranges over the whole table, is set aside unopened.
-/
import proofs.«202049_g85220741087307_cont_9to1_m_1159_10_alg».proof.Pre_input_domain
import proofs.«202049_g85220741087307_cont_9to1_m_1159_10_alg».proof.Proof.Gen.Pre_input_domain
import Idealize.ShloMosaic.Lib.ReduceAll
import Idealize.ShloMosaic.Lib.ValueIdx

namespace Cert.Proof.PreIdx

open Idealize.ShloMosaic

/-- A rank-0 array has exactly one index. -/
instance : Subsingleton Cert.Pre_input_domain.S_.Idx := ⟨fun a b => funext fun d => d.elim0⟩

/-- The integer the word 777 denotes, read signed. -/
theorem toInt_777 : (777#32 : BitVec 32).toInt = 777 := by decide

/-- A word that is at least and at most 777 in the signed order is 777. -/
theorem eq_777_of_sge_sle (w : BitVec 32) (hge : IntOp.cmpi .sge w (777#32) = 1#1)
    (hle : IntOp.cmpi .sle w (777#32) = 1#1) : w = 777#32 := by
  rw [IntOp.cmpi_sge] at hge
  rw [IntOp.cmpi_sle] at hle
  exact BitVec.eq_of_toInt_eq (Int.le_antisymm hle hge)

/-- Under the precondition the index array holds the word 777. -/
theorem idx_eq {F : FTy → Type} [FloatOps F] [Cert.Pre_input_domain.Facts]
    (a0 : IVec Cert.Pre_input_domain.S_ 32) (a1 : FVec F Cert.Pre_input_domain.S1000000x128 .f32)
    (h : Cert.Pre_input_domain.fn (F := F) a0 a1 = fun _ => 1#1) : a0 = fun _ => 777#32 := by
  funext i
  have e := congrFun h i
  unfold Cert.Pre_input_domain.fn at e
  dsimp only at e
  -- the outer conjunction: keep the half about the index word, drop the half about the table
  obtain ⟨-, e2⟩ := IntOp.andi_eq_one.1 e
  -- the reduction of a one-entry array by "and" from 1 is that entry
  have e3 := Host.reduce_andi_all _ _ _ _ i e2 i
  obtain ⟨hge, hle⟩ := IntOp.andi_eq_one.1 e3
  exact eq_777_of_sge_sle (a0 i) hge hle

/-- The one-row slice starting at row 777 lies inside the table. -/
theorem chk_777 : ∀ a : Fin 2, (![(777#32 : BitVec 32).toNat, 0] : Fin 2 → Nat) a + (![1, 128] : Fin 2 → Nat) a
    ≤ (![1000000, 128] : Fin 2 → Nat) a := by decide

end Cert.Proof.PreIdx
-- ==== Proof.IdealRun.lean ====
/-
  The lookup program's run: every weakly fair execution of all the device's threads ends, nothing faulting, with the
  result vector at row 777 of the table and both arguments as they were — under the hypothesis that the index argument
  holds 777, which is what the precondition says of it (its two signed comparisons against 777 pin the word).
  The frame is this run with the result's value dropped.
-/
import proofs.«202049_g85220741087307_cont_9to1_m_1159_10_alg».proof.Proof.IdealBody
import proofs.«202049_g85220741087307_cont_9to1_m_1159_10_alg».proof.Proof.IdealMain
import proofs.«202049_g85220741087307_cont_9to1_m_1159_10_alg».proof.Proof.PreIdx
import proofs.«202049_g85220741087307_cont_9to1_m_1159_10_alg».proof.Proof.Gen.Pre_input_domain

noncomputable section

namespace Cert.Proof.LookupIdeal

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (m : (ℓ : Loc nD τ sig) → Buf (Elt F) ℓ) (ρ : Dev nD → PrngReg)

variable [FloatOps F]

/-- What the run ends in: the result at row 777 of the launch table, the two arguments unchanged. -/
def QC : PUnit × MemSt nD τ sig (Elt F) → Prop := fun r => ∀ c : Dev nD,
  r.2.mem (outLoc c) = outVal m c ∧ r.2.mem (wLoc c) = m (wLoc c) ∧ r.2.mem (tbLoc c) = m (tbLoc c)

theorem run_main [∀ e, Nonempty (Elt F e)] (hw : ∀ d : Dev nD, m (wLoc d) = fun _ => 777#32) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ hw) (fq m) (hfin m) (QC m) (fun _ h => h)

/-- The precondition pins the index argument to 777 on every device. -/
theorem idx_of_pre (m : (ℓ : Loc nD τ sig) → Buf (Elt Ideal) ℓ) (hpre : Cert.Pre_KernelIdeal m) (d : Dev nD) :
    m (wLoc d) = fun _ => 777#32 :=
  Cert.Proof.PreIdx.idx_eq (F := Ideal) _ _ (hpre d)

/-- The program runs to the end, faults nowhere, and leaves its two arguments unchanged. -/
theorem frame : Cert.frame_KernelIdeal := fun m ρ hpre =>
  (θ_run Cert.KernelIdeal.defs _ _).mono (fun _ h c => (h c).2) (run_main (F := Ideal) m ρ (idx_of_pre m hpre))

end Cert.Proof.LookupIdeal

end
-- ==== Proof.BitsLaunch.lean ====
/-
  The lookup kernel as the launch theorem for SparseCore programs sees it: one scalar-subcore call on one
  SparseCore, whose sequencer copies the one-entry index array into its scalar memory, reads the word, and copies
  the table row the word names into the result buffer. Here: the configuration, the ghost state (the handshakes'
  rounds beside the transfers' counters), the arrays' locations, and what the call hands the sequencer and takes
  back — the index array holding 777 and the table, both unchanged, and the row buffer, which comes back holding
  row 777 of the table.
-/
import proofs.«202049_g85220741087307_cont_9to1_m_1159_10_alg».proof.Defs
import proofs.«202049_g85220741087307_cont_9to1_m_1159_10_alg».proof.Proof.Spec
import Idealize.ShloMosaic.Lib.SparseCore.Launch
import Idealize.ShloMosaic.Lib.StableHlo.Run
import Idealize.ShloMosaic.Lib.Pipeline.Kit
import Idealize.ShloMosaic.Lib.Tactic
import proofs.«202049_g85220741087307_cont_9to1_m_1159_10_alg».proof.Proof.Gen.Kernel
import proofs.«202049_g85220741087307_cont_9to1_m_1159_10_alg».proof.Proof.Gen.Kernel.Skeleton

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The scalar index argument. -/
abbrev wLoc (d : Dev nD) : Loc nD τ sig := (SparseCore.T d).loc main_arg0
/-- The table. -/
abbrev tbLoc (d : Dev nD) : Loc nD τ sig := (SparseCore.T d).loc main_arg1
/-- The index as a one-entry array (the reshape of the scalar argument). -/
abbrev ixLoc (d : Dev nD) : Loc nD τ sig := (SparseCore.T d).loc main_v0
/-- The kernel's result: one row as a 1 × 128 matrix. -/
abbrev rwLoc (d : Dev nD) : Loc nD τ sig := (SparseCore.T d).loc main_v1
/-- The program's result: that row as a vector. -/
abbrev outLoc (d : Dev nD) : Loc nD τ sig := (SparseCore.T d).loc main_v2

/-- The one-entry index array holding 777. -/
abbrev ixVal (d : Dev nD) : Buf (Elt F) (ixLoc d) := Spec.idx777
/-- Row 777 of the launch table, as the kernel's 1 × 128 result. -/
abbrev rwVal (d : Dev nD) : Buf (Elt F) (rwLoc d) := Spec.rowM (m (tbLoc d))
/-- Row 777 of the launch table, as the program's result vector. -/
abbrev outVal (d : Dev nD) : Buf (Elt F) (outLoc d) := Spec.row777 (m (tbLoc d))

abbrev ixPts (d : Dev nD) : sProp 𝕄 := ixLoc d ↦{fullShare} ixVal d
abbrev tbPts (d : Dev nD) : sProp 𝕄 := tbLoc d ↦{fullShare} m (tbLoc d)
abbrev rwPts (d : Dev nD) (f : Buf (Elt F) (rwLoc d)) : sProp 𝕄 := rwLoc d ↦{fullShare} f

/-- What the call hands the one SparseCore that runs the kernel: the index array at 777, the table at its launch
    contents, the row buffer at whatever it holds. -/
def stRes (d : Dev nD) : sProp 𝕄 := iprop(ixPts d ∗ tbPts m d ∗ ∃ f, rwPts d f)
/-- What it takes back: the same, the row buffer now at row 777 of the table. -/
def dnRes (d : Dev nD) : sProp 𝕄 := iprop(ixPts d ∗ tbPts m d ∗ rwPts d (rwVal m d))

instance stRes_storable (d : Dev nD) : BI.Storable (upEmb : UEmb _ 𝕄) (stRes m d) := by
  unfold stRes; infer_instance
instance dnRes_storable (d : Dev nD) : BI.Storable (upEmb : UEmb _ 𝕄) (dnRes m d) := by
  unfold dnRes; infer_instance

/-- The call's payloads; the kernel's proof consumes nothing of the launch's. -/
def P : (K (F := F)).Pay (nD := nD) (Val := Elt F) (Name := ℕ) (U := UU) where
  st := fun _ d _ => stRes m d
  dn := fun _ d _ => dnRes m d
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

end Cert.Proof.LookupBits

end
-- ==== Proof.BitsBody.lean ====
/-
  The kernel's body on the one sequencer that runs it. The sequencer copies the one-entry index array into its
  scalar memory and waits; reads the word, which is 777; the row that word names lies inside the table; it copies
  that row of the table into the row buffer and waits. Afterwards the index array and the table are as they were,
  and entry (0, j) of the row buffer is entry (777, j) of the table.
-/
import proofs.«202049_g85220741087307_cont_9to1_m_1159_10_alg».proof.Proof.BitsLaunch

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

-- the kernel's memrefs, spelt as the body table passes them
local notation "iW" => (Memref.whole Cert.Kernel.main_v0_scs : Memref Cert.Kernel.sig Kind.scScalar Space.hbm Cert.Kernel.S1 EltTy.i32)
local notation "tW" => (Memref.whole Cert.Kernel.main_arg1_scs : Memref Cert.Kernel.sig Kind.scScalar Space.hbm Cert.Kernel.S1000000x128 EltTy.f32)
local notation "oW" => (Memref.whole Cert.Kernel.main_v1_scs : Memref Cert.Kernel.sig Kind.scScalar Space.hbm Cert.Kernel.S1x128 EltTy.f32)
local notation "sW" => (Memref.whole Cert.Kernel.cc0_scratch0 : Memref Cert.Kernel.sig Kind.scScalar Space.smem Cert.Kernel.S1 EltTy.i32)

variable [FloatOps F]

section Body

variable (d : Dev nD)

def coordsS (c : Fin (grid0.bound 0)) : grid0.Coords := fun | 0 => c | ⟨_ + 1, h⟩ => absurd h (Nat.not_lt.2 (Nat.le_add_left _ _))

/-- The two transfer semaphores of the sequencer: the index copy's and the row copy's. -/
abbrev c0cell (c : Fin τ.nSC) : GSem nD τ sig := (S d c, .dma cc0_scoped0.sem)
abbrev c1cell (c : Fin τ.nSC) : GSem nD τ sig := (S d c, .dma cc0_scoped1.sem)

/-- The sequencer's scalar-memory word. -/
abbrev scRef (c : Fin τ.nSC) : DevRef τ sig := (Proc.scScalar c).devRef cc0_scratch0
abbrev scLoc (c : Fin τ.nSC) : Loc nD τ sig := (d, scRef c)

omit [FloatOps F] in
theorem ownSems0_S (c : Fin τ.nSC) :
    (ownSems0 (S d c) : sProp 𝕄) = iprop(semVal (c0cell d c) 0 ∗ semVal (c1cell d c) 0
      ∗ bigSep (((ownCells (S d c)).erase (c0cell d c)).erase (c1cell d c)) fun g => semVal g 0) := by
  unfold SparseCore.Cfg.ownSems0
  rw [SparseCore.bigSep_erase' ((mem_ownCells (g := c0cell d c)).mpr ⟨rfl, by show (SemLoc.dma cc0_scoped0.sem : SemLoc sig).isScoped .scScalar = true; decide⟩),
    SparseCore.bigSep_erase' (Finset.mem_erase.mpr ⟨fun e => absurd (congrArg Prod.snd e) (show (SemLoc.dma cc0_scoped1.sem : SemLoc sig) ≠ SemLoc.dma cc0_scoped0.sem by decide), (mem_ownCells (g := c1cell d c)).mpr ⟨rfl, by show (SemLoc.dma cc0_scoped1.sem : SemLoc sig).isScoped .scScalar = true; decide⟩⟩)]

omit [FloatOps F] in
theorem ownBufs_S (c : Fin τ.nSC) :
    (ownBufs (S d c) : sProp 𝕄)
      = iprop((∃ f, scLoc d c ↦{fullShare} f) ∗ bigSep ((ownRefs (τ := τ) (.scScalar c)).erase (scRef c)) fun b => iprop(∃ f, ((d, b) : Loc nD τ sig) ↦{fullShare} f)) := by
  unfold SparseCore.Cfg.ownBufs
  exact SparseCore.bigSep_erase' (SparseCore.Cfg.mem_ownRefs_of_owner (p := Proc.scScalar c) (b := scRef c) rfl)

omit [FloatOps F] in
theorem pts_i (c : Fin τ.nSC) (f : Buf (Elt F) (ixLoc d)) :
    ((iW).view.loc (S d c) ↦{fullShare} f : sProp 𝕄) = ixLoc d ↦{fullShare} f := by
  simp only [Memref.view_whole, View.set_whole]
omit [FloatOps F] in
theorem pts_t (c : Fin τ.nSC) (f : Buf (Elt F) (tbLoc d)) :
    ((tW).view.loc (S d c) ↦{fullShare} f : sProp 𝕄) = tbLoc d ↦{fullShare} f := by
  simp only [Memref.view_whole, View.set_whole]
omit [FloatOps F] in
theorem pts_o (c : Fin τ.nSC) (f : Buf (Elt F) (rwLoc d)) :
    ((oW).view.loc (S d c) ↦{fullShare} f : sProp 𝕄) = rwLoc d ↦{fullShare} f := by
  simp only [Memref.view_whole, View.set_whole]
omit [FloatOps F] in
theorem pts_s (c : Fin τ.nSC) (f : Buf (Elt F) (scLoc d c)) :
    ((sW).view.loc (S d c) ↦{fullShare} f : sProp 𝕄) = scLoc d c ↦{fullShare} f := by
  simp only [Memref.view_whole, View.set_whole]

omit [FloatOps F] in
/-- The table read through the one-row slice at a word equal to 777 is row 777: the slice's entry (a, j) is
    the table's entry (777 + a, j), and a ranges over one row. -/
theorem row_of_word (t : Buf (Elt F) (tbLoc d)) (v : BitVec 32) (hv : k0_chk1 v) (e : v = 777#32) :
    View.read (Elt F) ((tW).slice (Rect.unit (s := S1000000x128) (k0_off1 v) S1x128.size (k0_off1_inb v hv)) (fun _ => rfl)).view t
      = (Spec.rowM t : S1x128.Idx → Elt F .f32) := by
  subst e
  funext y
  show t _ = t (ValueIdx.ix2 Spec.r777 (y 1))
  congr 1
  funext a
  apply Fin.ext
  match a with
  | ⟨0, _⟩ =>
    have h0 : (y 0).val < 1 := (y 0).isLt
    show 777 + 1 * (y 0).val = 777
    omega
  | ⟨1, _⟩ =>
    show 0 + 1 * (y 1).val = (y 1).val
    omega

abbrev S0 (h : 0 < grid0.bound 0) : Thread nD τ := S d ((⟨0, h⟩ : Fin (grid0.bound 0)).castLE hcore0)

theorem body₀ (h : 0 < grid0.bound 0) (O : CellTallies nD τ sig (HIx 1)) (W : Waits sig (HIx 1)) (hO : ∀ g, O g none = 0) :
    iprop(levAts (K (F := F)).L (K (F := F)).lev ∗ emp ∗ stRes m d
        ∗ scopedBufs (S0 d h) ∗ scopedSems0 (S0 d h) ∗ owes (S0 d h) O W)
      ⊢ wp frame (wpE (defs₀ (F := F)) 𝒱₀ (S0 d h) none) Set.univ
          (cc0__scs_lookup (coordsS ⟨0, h⟩) iW (Memref.isWhole_whole _) tW (Memref.isWhole_whole _) oW (Memref.isWhole_whole _) sW (Memref.isWhole_whole _) cc0_scoped0 cc0_scoped1)
          fun _ => iprop(dnRes m d ∗ scopedBufs (S0 d h) ∗ scopedSems0 (S0 d h) ∗ ∃ W', ⌜∀ p ∈ W', p ∈ W ∨ p.2 = none⌝ ∗ owes (S0 d h) O W') := by
  simp only [cc0__scs_lookup_eq_skeleton]; unfold cc0__scs_lookup_skel
  unfold stRes
  iintro ⟨#Hlv, -, ⟨Hi, Ht, %fo, Ho⟩, Hsb, Hss, HO⟩
  ihave Hss' := (SparseCore.Cfg.scopedSems0_S_elim (Val := Elt F) d (((⟨0, h⟩ : Fin (grid0.bound 0))).castLE hcore0)) $$ Hss
  icases Hss' with ⟨Hown, Hsubs⟩
  ihave Hown' := (Entails.of_eq (ownSems0_S (F := F) d (((⟨0, h⟩ : Fin (grid0.bound 0))).castLE hcore0))) $$ Hown
  icases Hown' with ⟨Hsem0, Hsem1, Hrest⟩
  ihave Hsb' := ((K (F := F)).scopedBufs_S_elim (Val := Elt F) facts d (((⟨0, h⟩ : Fin (grid0.bound 0))).castLE hcore0)) $$ Hsb
  icases Hsb' with ⟨Hob, Hsubb⟩
  ihave Hob' := (Entails.of_eq (ownBufs_S (F := F) d (((⟨0, h⟩ : Fin (grid0.bound 0))).castLE hcore0))) $$ Hob
  icases Hob' with ⟨⟨%fs, Hs⟩, Hrestb⟩
  ihave Hmw := ((K (F := F)).mayWaits_none (thr := S0 d h) hO) $$ Hlv
  ihave Hi' := (Entails.of_eq (pts_i (F := F) d (((⟨0, h⟩ : Fin (grid0.bound 0))).castLE hcore0) _).symm) $$ Hi
  ihave Ht' := (Entails.of_eq (pts_t (F := F) d (((⟨0, h⟩ : Fin (grid0.bound 0))).castLE hcore0) _).symm) $$ Ht
  ihave Ho' := (Entails.of_eq (pts_o (F := F) d (((⟨0, h⟩ : Fin (grid0.bound 0))).castLE hcore0) _).symm) $$ Ho
  ihave Hs' := (Entails.of_eq (pts_s (F := F) d (((⟨0, h⟩ : Fin (grid0.bound 0))).castLE hcore0) _).symm) $$ Hs
  sl_exec
  have hr : body₀.sl.r d h fs = 777#32 := by
    unfold body₀.sl.r
    have e1 : View.write (Elt F) (sW).view fs body₀.sl.dma0 Finset.univ = body₀.sl.dma0 := View.write_whole_univ _ _ _
    rw [e1]
    have e2 := Memref.readAt_unit_zero (Elt F) cc0_scratch0 (off := ![0]) (funext fun a => by match a with | ⟨0, _⟩ => rfl) inb_S1_S1_0 body₀.sl.dma0
    refine (congrFun e2 _).trans ?_
    unfold body₀.sl.dma0
    rfl
  have hchk : k0_chk1 (body₀.sl.r d h fs) := by rw [hr]; decide
  sl_exec
  have hrow : body₀.sl.dma0_1 m d h fs hchk = rwVal m d := by
    unfold body₀.sl.dma0_1
    exact row_of_word (F := F) d (m (tbLoc d)) _ hchk hr
  have e3 : View.write (Elt F) (oW).view fo (body₀.sl.dma0_1 m d h fs hchk) Finset.univ = rwVal m d :=
    (View.write_whole_univ _ _ _).trans hrow
  rw [e3]
  sl_step
  isplitl [Hi' Ht' Ho']
  · unfold dnRes
    isplitl [Hi']; · iapply (Entails.of_eq (pts_i (F := F) d _ _)); iexact Hi'
    isplitl [Ht']; · iapply (Entails.of_eq (pts_t (F := F) d _ _)); iexact Ht'
    iapply (Entails.of_eq (pts_o (F := F) d _ _)); iexact Ho'
  isplitl [Hs' Hrestb Hsubb]
  · iapply ((K (F := F)).scopedBufs_S_intro (Val := Elt F) facts d _)
    isplitl [Hs' Hrestb]
    · rw [ownBufs_S]
      isplitl [Hs']
      · iexists _; iapply (Entails.of_eq (pts_s (F := F) d _ _)); iexact Hs'
      · iexact Hrestb
    · iexact Hsubb
  isplitl [Hsem0 Hsem1 Hrest Hsubs]
  · iapply (SparseCore.Cfg.scopedSems0_S_intro (Val := Elt F) d _)
    isplitl [Hsem0 Hsem1 Hrest]
    · rw [ownSems0_S]
      isplitl [Hsem0]; · iexact Hsem0
      isplitl [Hsem1]; · iexact Hsem1
      iexact Hrest
    · iexact Hsubs
  iexists _; isplitr
  swap
  · iexact HO
  · ipureintro; intro p hp
    rcases Finset.mem_insert.mp hp with hp | hp
    · exact .inr (by subst hp; rfl)
    rcases Finset.mem_insert.mp hp with hp | hp
    · exact .inr (by subst hp; rfl)
    · exact .inl hp

end Body

/-! ## The launch theorem's obligation -/

theorem defs₀_scalar (c : Fin τ.nSC) :
    defs₀ (F := F) (.scScalar c) 0 ()
      = SparseCore.onCore hcore0 (fun c => cc0__scs_lookup (coordsS c) iW (Memref.isWhole_whole _) tW (Memref.isWhole_whole _) oW (Memref.isWhole_whole _) sW (Memref.isWhole_whole _) cc0_scoped0 cc0_scoped1) ⟨⟩ c := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The scalar-subcore obligation at the one call: the grid's one SparseCore runs `body₀`. -/
theorem scalarObl : (K (F := F)).ScalarObl (D (F := F)) 𝒱 (P m) v₀ 0 := by
  intro d c O W hO _ _
  -- the kernel owes nothing for a protocol of its own
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  show iprop(_ ∗ _ ∗ stRes m d ∗ _) ⊢ wp _ _ _ _ (fun _ => iprop(dnRes m d ∗ _))
  match c with
  | ⟨0, h⟩ => exact (body₀ m d h O W hO).trans (wp_mono frame _ _ fun _ => obl_post)

end Cert.Proof.LookupBits

end
-- ==== Proof.BitsMain.lean ====
/-
  @main of the lookup program on the TensorCore, and the launch's ghost element. @main reshapes the scalar index into a
  one-entry array, calls the kernel on one SparseCore, and reshapes the kernel's 1 × 128 result into a vector of 128
  entries. Under the hypothesis that the index argument holds 777, the one-entry array holds 777 (a reshape of a constant
  is that constant); the call takes the index array, the table and the row buffer and gives them back with the row buffer
  at row 777 of the table; and the last reshape reads entry j of the vector at entry (0, j) of the 1 × 128 matrix, which
  is entry (777, j) of the table. The table's contents are never unfolded: they are carried through as they are.
-/
import proofs.«202049_g85220741087307_cont_9to1_m_1159_10_alg».proof.Proof.BitsLaunch
import Idealize.ShloMosaic.Lib.ValueLayout

noncomputable section

namespace Cert.Proof.LookupBits

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The two reshapes' values -/

/-- A one-entry array cast from the scalar holding 777 is the one-entry array holding 777. -/
theorem cast_idx (x : S_.Idx → BitVec 32) (hx : x = fun _ => 777#32) (h : S_.ShapeCasts S1) :
    shapeCast S1 x h = Spec.idx777 := by
  subst hx; rfl

/-- Row 777 kept as a 1 × 128 matrix, cast to a vector, is row 777 as a vector: entry j of the vector is entry (0, j)
    of the matrix. -/
theorem cast_row {α : Type} (t : Spec.Tbl.Idx → α) (h : S1x128.ShapeCasts S128) :
    shapeCast S128 (Spec.rowM t) h = Spec.row777 t := by
  funext j
  obtain ⟨i, rfl⟩ : ∃ i, j = ix1 i := ⟨j 0, eq_ix1 j⟩
  rw [shapeCast_1a_a_apply]
  rfl

/-! ## @main on the TensorCore -/

abbrev w' : DevRef τ sig := Proc.devRef .tc (main_arg0 : Ref sig .tc)
abbrev tb' : DevRef τ sig := Proc.devRef .tc (main_arg1 : Ref sig .tc)
abbrev ix' : DevRef τ sig := Proc.devRef .tc (main_v0 : Ref sig .tc)
abbrev rw' : DevRef τ sig := Proc.devRef .tc (main_v1 : Ref sig .tc)
abbrev out' : DevRef τ sig := Proc.devRef .tc (main_v2 : Ref sig .tc)

/-- The reshape of the scalar index into the one-entry index array. -/
abbrev opIx : HloOp τ sig (Elt F) := StableHlo.reshape main_arg0 main_v0 rfl Facts₀.shapeCasts_S_S1
/-- The reshape of the 1 × 128 row into the result vector. -/
abbrev opOut : HloOp τ sig (Elt F) := StableHlo.reshape main_v1 main_v2 rfl Facts₀.shapeCasts_S1x128_S128

/-- The TensorCore's arrays, all unscoped: the two arguments, the index array, the row buffer, the result. -/
abbrev S5 : Finset (DevRef τ sig) := {w', tb', ix', rw', out'}

omit [FloatOps F] in
theorem held_S5 (d : Dev nD) (W : Valuation τ sig (Elt F)) :
    (held (T d) S5 W : sProp 𝕄) = iprop((wLoc d ↦{fullShare} W w') ∗ (tbLoc d ↦{fullShare} W tb') ∗ (ixLoc d ↦{fullShare} W ix')
      ∗ (rwLoc d ↦{fullShare} W rw') ∗ outLoc d ↦{fullShare} W out') := by
  unfold held S5
  rw [SparseCore.bigSep_insert' (by decide), SparseCore.bigSep_insert' (by decide), SparseCore.bigSep_insert' (by decide),
    SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((wLoc d ↦{fullShare} W main_arg0) ∗ (tbLoc d ↦{fullShare} W main_arg1) ∗ (ixLoc d ↦{fullShare} W main_v0)
      ∗ (rwLoc d ↦{fullShare} W main_v1) ∗ outLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem unscoped_held (d : Dev nD) : (unscopedBufs d (fun b => m ((SparseCore.T d).loc b)) : sProp 𝕄) = held (T d) S5 (V0 m d) := by
  rw [unscopedBufs_eq, held_S5]; rfl

/-! ### The first reshape: the index as a one-entry array -/

theorem hIx : (opIx (F := F)).bufs ⊆ S5 := show ({w', ix'} : Finset (DevRef τ sig)) ⊆ S5 by decide
theorem hOut : (opOut (F := F)).bufs ⊆ S5 := show ({rw', out'} : Finset (DevRef τ sig)) ⊆ S5 by decide

theorem V1_w (d : Dev nD) : (opIx (F := F)).result (V0 m d) w' = m (wLoc d) :=
  StableHlo.reshape_result_ne (x := main_arg0) (y := main_v0) rfl Facts₀.shapeCasts_S_S1 _ _ (V0 m d) (r := main_arg0) (by decide)
theorem V1_tb (d : Dev nD) : (opIx (F := F)).result (V0 m d) tb' = m (tbLoc d) :=
  StableHlo.reshape_result_ne (x := main_arg0) (y := main_v0) rfl Facts₀.shapeCasts_S_S1 _ _ (V0 m d) (r := main_arg1) (by decide)
theorem V1_rw (d : Dev nD) : (opIx (F := F)).result (V0 m d) rw' = m (rwLoc d) :=
  StableHlo.reshape_result_ne (x := main_arg0) (y := main_v0) rfl Facts₀.shapeCasts_S_S1 _ _ (V0 m d) (r := main_v1) (by decide)
theorem V1_out (d : Dev nD) : (opIx (F := F)).result (V0 m d) out' = m (outLoc d) :=
  StableHlo.reshape_result_ne (x := main_arg0) (y := main_v0) rfl Facts₀.shapeCasts_S_S1 _ _ (V0 m d) (r := main_v2) (by decide)
/-- The index array after the reshape: the scalar argument holds 777, so the one-entry array does. -/
theorem V1_ix (hw : ∀ d : Dev nD, m (wLoc d) = fun _ => 777#32) (d : Dev nD) : (opIx (F := F)).result (V0 m d) ix' = ixVal d :=
  (StableHlo.reshape_result main_arg0 main_v0 rfl Facts₀.shapeCasts_S_S1 _ _ (V0 m d)).trans (cast_idx (m (wLoc d)) (hw d) _)

theorem held_V1 (hw : ∀ d : Dev nD, m (wLoc d) = fun _ => 777#32) (d : Dev nD) :
    (held (T d) S5 ((opIx (F := F)).result (V0 m d)) : sProp 𝕄)
      = iprop((wLoc d ↦{fullShare} m (wLoc d)) ∗ tbPts m d ∗ ixPts d ∗ (rwLoc d ↦{fullShare} m (rwLoc d)) ∗ outLoc d ↦{fullShare} m (outLoc d)) := by
  rw [held_S5, V1_w, V1_tb, V1_ix m hw, V1_rw, V1_out]

/-! ### The call: one SparseCore takes the index array, the table and the row buffer, and gives them back -/

theorem st0_eq (d : Dev nD) : (bigSep Finset.univ fun c : Fin ((K (F := F)).nCore 0) => (P m).st 0 d c) = stRes m d := by
  show (bigSep (Finset.univ : Finset (Fin 1)) fun _ => stRes m d) = _
  rw [show (Finset.univ : Finset (Fin 1)) = {0} by decide, bigSep_singleton]
theorem dn0_eq (d : Dev nD) : (bigSep Finset.univ fun c : Fin ((K (F := F)).nCore 0) => (P m).dn 0 d c) = dnRes m d := by
  show (bigSep (Finset.univ : Finset (Fin 1)) fun _ => dnRes m d) = _
  rw [show (Finset.univ : Finset (Fin 1)) = {0} by decide, bigSep_singleton]

/-! ### The second reshape: the row as a vector -/

/-- After the call: the index array at 777, the row buffer at row 777 of the table, the rest at launch contents. -/
def V2 (d : Dev nD) : Valuation τ sig (Elt F) := Function.update (Function.update (V0 m d) ix' (ixVal d)) rw' (rwVal m d)

theorem V2_w (d : Dev nD) : V2 m d w' = m (wLoc d) :=
  (Function.update_of_ne (show w' ≠ rw' by decide) _ _).trans (Function.update_of_ne (show w' ≠ ix' by decide) _ _)
theorem V2_tb (d : Dev nD) : V2 m d tb' = m (tbLoc d) :=
  (Function.update_of_ne (show tb' ≠ rw' by decide) _ _).trans (Function.update_of_ne (show tb' ≠ ix' by decide) _ _)
theorem V2_ix (d : Dev nD) : V2 m d ix' = ixVal d :=
  (Function.update_of_ne (show ix' ≠ rw' by decide) _ _).trans (Function.update_self _ _ _)
theorem V2_rw (d : Dev nD) : V2 m d rw' = rwVal m d := Function.update_self _ _ _
theorem V2_out (d : Dev nD) : V2 m d out' = m (outLoc d) :=
  (Function.update_of_ne (show out' ≠ rw' by decide) _ _).trans (Function.update_of_ne (show out' ≠ ix' by decide) _ _)

theorem V3_w (d : Dev nD) : (opOut (F := F)).result (V2 m d) w' = m (wLoc d) :=
  (StableHlo.reshape_result_ne (x := main_v1) (y := main_v2) rfl Facts₀.shapeCasts_S1x128_S128 _ _ (V2 m d) (r := main_arg0) (by decide)).trans (V2_w m d)
theorem V3_tb (d : Dev nD) : (opOut (F := F)).result (V2 m d) tb' = m (tbLoc d) :=
  (StableHlo.reshape_result_ne (x := main_v1) (y := main_v2) rfl Facts₀.shapeCasts_S1x128_S128 _ _ (V2 m d) (r := main_arg1) (by decide)).trans (V2_tb m d)
theorem V3_ix (d : Dev nD) : (opOut (F := F)).result (V2 m d) ix' = ixVal d :=
  (StableHlo.reshape_result_ne (x := main_v1) (y := main_v2) rfl Facts₀.shapeCasts_S1x128_S128 _ _ (V2 m d) (r := main_v0) (by decide)).trans (V2_ix m d)
theorem V3_rw (d : Dev nD) : (opOut (F := F)).result (V2 m d) rw' = rwVal m d :=
  (StableHlo.reshape_result_ne (x := main_v1) (y := main_v2) rfl Facts₀.shapeCasts_S1x128_S128 _ _ (V2 m d) (r := main_v1) (by decide)).trans (V2_rw m d)
/-- The result after the reshape: the row buffer holds row 777 as a 1 × 128 matrix, so the result holds it as a vector. -/
theorem V3_out (d : Dev nD) : (opOut (F := F)).result (V2 m d) out' = outVal m d := by
  refine (StableHlo.reshape_result main_v1 main_v2 rfl Facts₀.shapeCasts_S1x128_S128 _ _ (V2 m d)).trans ?_
  show shapeCast S128 (V2 m d rw') _ = _
  rw [V2_rw]; exact cast_row _ _

theorem held_V3 (d : Dev nD) :
    (held (T d) S5 ((opOut (F := F)).result (V2 m d)) : sProp 𝕄)
      = iprop((wLoc d ↦{fullShare} m (wLoc d)) ∗ tbPts m d ∗ ixPts d ∗ rwPts d (rwVal m d) ∗ outLoc d ↦{fullShare} outVal m d) := by
  rw [held_S5, V3_w, V3_tb, V3_ix, V3_rw, V3_out]

/-- What @main leaves the claim: the two arguments at their launch contents and the result at row 777 of the table. -/
abbrev FIN (d : Dev nD) : sProp 𝕄 := iprop((wLoc d ↦{fullShare} m (wLoc d)) ∗ tbPts m d ∗ outLoc d ↦{fullShare} outVal m d)

/-- @main on device d's TensorCore: the reshape of the index (the arrays held whole), the call (from the index array, the
    table and the row buffer; back with the row buffer at row 777), the reshape of the row (the arrays held whole again);
    the two arguments kept. -/
theorem hmain (hw : ∀ d : Dev nD, m (wLoc d) = fun _ => 777#32) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the index as a one-entry array
  iapply (wp_hlo_within 𝒱 (SparseCore.T d) none Set.univ (op := opIx) (S := S5) hIx (V := V0 m d)) $$ [Hb Hheld]
  · isplitl [Hb] <;> iassumption
  iintro ⟨Hb, Hheld⟩
  rw [wp_ret]; imodintro
  ihave Hh := (Entails.of_eq (held_V1 (F := F) m hw d)) $$ Hheld
  icases Hh with ⟨Hw, Htb, Hix, Hrw, Hout⟩
  -- the call: the index array, the table and the row buffer to the one SparseCore and back
  iapply ((K (F := F)).wp_run (D (F := F)) 𝒱 (EH := EH) (P := P m) κ d 0) $$ [Hst Htb Hix Hrw Hb Hw Hout]
  isplitr; · iexact Hctx
  isplitl [Hst]; · iexact Hst
  isplitl [Htb Hix Hrw]
  · rw [st0_eq]; unfold stRes
    isplitl [Hix]; · iexact Hix
    isplitl [Htb]; · iexact Htb
    iexists _; iexact Hrw
  iintro ⟨Hst, Hdn⟩
  ihave Hdn' := (Entails.of_eq (dn0_eq m d)) $$ Hdn
  unfold dnRes
  icases Hdn' with ⟨Hix, Htb, Hrw⟩
  -- the row as a vector
  iapply (wp_hlo_within 𝒱 (SparseCore.T d) none Set.univ (op := opOut) (S := S5) hOut (V := V2 m d)) $$ [Hb Hw Htb Hix Hrw Hout]
  · isplitl [Hb]; · iexact Hb
    rw [held_S5, V2_w, V2_tb, V2_ix, V2_rw, V2_out]
    isplitl [Hw]; · iexact Hw
    isplitl [Htb]; · iexact Htb
    isplitl [Hix]; · iexact Hix
    isplitl [Hrw]; · iexact Hrw
    iexact Hout
  iintro ⟨Hb, Hheld⟩
  ihave Hh := (Entails.of_eq (held_V3 (F := F) m d)) $$ Hheld
  icases Hh with ⟨Hw, Htb, -, -, Hout⟩
  rw [wp_ret]; imodintro; imodintro
  isplitl [Hst]; · iexact Hst
  isplitl [Hw]; · iexact Hw
  isplitl [Htb]; · iexact Htb
  iexact Hout

/-! ## Reading the final memory -/

def fq (d : Dev nD) (s' : Phys nD τ sig (Elt F)) : Prop :=
  s'.mem.mem (outLoc d) = outVal m d ∧ s'.mem.mem (wLoc d) = m (wLoc d) ∧ s'.mem.mem (tbLoc d) = m (tbLoc d)

theorem hfin (d : Dev nD) (s' : Phys nD τ sig (Elt F)) : iprop(FIN m d ∗ SI s') ⊢ (⌜fq m d s'⌝ : sProp 𝕄) := by
  iintro ⟨⟨Hw, Htb, Hout⟩, HSI⟩
  ihave H := (persistent_entails_right (SI_pointsTo_agree (st := s') (ℓ := wLoc d) (I := Finset.univ) (q := fullShare) (f := m (wLoc d)))) $$ [HSI Hw]
  · isplitl [HSI] <;> iassumption
  icases H with ⟨%h1, HSI, -⟩
  ihave H := (persistent_entails_right (SI_pointsTo_agree (st := s') (ℓ := tbLoc d) (I := Finset.univ) (q := fullShare) (f := m (tbLoc d)))) $$ [HSI Htb]
  · isplitl [HSI] <;> iassumption
  icases H with ⟨%h2, HSI, -⟩
  ihave H := (SI_pointsTo_agree (st := s') (ℓ := outLoc d) (I := Finset.univ) (q := fullShare) (f := outVal m d)) $$ [HSI Hout]
  · isplitl [HSI] <;> iassumption
  icases H with %h3
  ipureintro
  exact ⟨funext fun i => h3 i (Finset.mem_univ i), funext fun i => h1 i (Finset.mem_univ i), funext fun i => h2 i (Finset.mem_univ i)⟩

end Cert.Proof.LookupBits

end
-- ==== Proof.BitsRun.lean ====
/-
  The lookup program's run: every weakly fair execution of all the device's threads ends, nothing faulting, with the
  result vector at row 777 of the table and both arguments as they were — under the hypothesis that the index argument
  holds 777, which is what the precondition says of it (its two signed comparisons against 777 pin the word).
  The frame is this run with the result's value dropped.
-/
import proofs.«202049_g85220741087307_cont_9to1_m_1159_10_alg».proof.Proof.BitsBody
import proofs.«202049_g85220741087307_cont_9to1_m_1159_10_alg».proof.Proof.BitsMain
import proofs.«202049_g85220741087307_cont_9to1_m_1159_10_alg».proof.Proof.PreIdx
import proofs.«202049_g85220741087307_cont_9to1_m_1159_10_alg».proof.Proof.Gen.Pre_input_domain

noncomputable section

namespace Cert.Proof.LookupBits

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

variable (m : (ℓ : Loc nD τ sig) → Buf (Elt F) ℓ) (ρ : Dev nD → PrngReg)

variable [FloatOps F]

/-- What the run ends in: the result at row 777 of the launch table, the two arguments unchanged. -/
def QC : PUnit × MemSt nD τ sig (Elt F) → Prop := fun r => ∀ c : Dev nD,
  r.2.mem (outLoc c) = outVal m c ∧ r.2.mem (wLoc c) = m (wLoc c) ∧ r.2.mem (tbLoc c) = m (tbLoc c)

theorem run_main [∀ e, Nonempty (Elt F e)] (hw : ∀ d : Dev nD, m (wLoc d) = fun _ => 777#32) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q _ => match q with | 0 => scalarObl m)
    (fun q hq => match q with | 0 => nomatch hq)
    (fun q hq => match q with | 0 => nomatch hq)
    m ρ main (fun _ => iprop(emp)) (FIN m) (u₀ (F := F)) (sep_elim_left.trans (hu₀ m)) (hmain m ρ hw) (fq m) (hfin m) (QC m) (fun _ h => h)

/-- The precondition pins the index argument to 777 on every device. -/
theorem idx_of_pre (m : (ℓ : Loc nD τ sig) → Buf (Elt Bits) ℓ) (hpre : Cert.Pre_Kernel m) (d : Dev nD) :
    m (wLoc d) = fun _ => 777#32 :=
  Cert.Proof.PreIdx.idx_eq (F := Bits) _ _ (hpre d)

/-- The program runs to the end, faults nowhere, and leaves its two arguments unchanged. -/
theorem frame : Cert.frame_Kernel := fun m ρ hpre =>
  (θ_run Cert.Kernel.defs _ _).mono (fun _ h c => (h c).2) (run_main (F := Bits) m ρ (idx_of_pre m hpre))

end Cert.Proof.LookupBits

end
-- ==== Proof.RefRun.lean ====
/-
  The reference program's @main as ONE straight line of its 24 host operations — the index's broadcast, the
  nineteen operations of the row lookup with the three-way select of its index normalisation written out where
  it is called, and the final reshape — and its run read back: every weakly fair execution terminates, the
  result buffer holds the operations' composed term `refTerm` of the two arguments, and the arguments are
  unchanged.
-/
import proofs.«202049_g85220741087307_cont_9to1_m_1159_10_alg».proof.Proof.Gen.ReferenceIdeal
import Idealize.ShloMosaic.Lib.StableHlo.Run

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-- @main's 24 operations, in order: the lookup's and the select's listed where they are called. -/
abbrev ops : List (HloOp τ sig (Elt F)) :=
  [ unary main_arg0 main_v0 (broadcastInDim S1 ![] bcast_S_S1 : (⟨S_, .i32⟩ : BufTy).Contents (Elt F) → (⟨S1, .i32⟩ : BufTy).Contents (Elt F)),
    TRef.nullary main_call0.c (constantI S_ 32 0#32),
    TRef.unary main_call0.c main_call0.v0 (broadcastInDim S1 ![] bcast_S_S1),
    TRef.binary (.of main_v0 : TRef sig ⟨S1, .i32⟩) main_call0.v0 main_call0.v1 (cmpi .slt),
    TRef.nullary main_call0.c_0 (constantI S_ 32 1000000#32),
    TRef.unary main_call0.c_0 main_call0.v2 (broadcastInDim S1 ![] bcast_S_S1),
    TRef.binary (.of main_v0 : TRef sig ⟨S1, .i32⟩) main_call0.v2 main_call0.v3 addi,
    TRef.ternary main_call0.v1 main_call0.v3 (.of main_v0 : TRef sig ⟨S1, .i32⟩) main_call0.call0.v0 select,
    TRef.unary main_call0.call0.v0 main_call0.v5 (broadcastInDim S1x1 ![0] bcast_S1_S1x1_0),
    TRef.nullary main_call0.c_1 (constantI S1 32 999999#32),
    TRef.nullary main_call0.c_2 (constantI S_ 32 0#32),
    TRef.unary main_call0.c_2 main_call0.v6 (broadcastInDim S1x1 ![] bcast_S_S1x1),
    TRef.binary main_call0.v5 main_call0.v6 main_call0.v7 (cmpi .sge),
    TRef.unary main_call0.c_1 main_call0.v8 (broadcastInDim S1x1 ![1] bcast_S1_S1x1_1),
    TRef.binary main_call0.v5 main_call0.v8 main_call0.v9 (cmpi .sle),
    TRef.binary main_call0.v7 main_call0.v9 main_call0.v10 andi,
    TRef.nullary main_call0.c_3 (constantI S_ 1 1#1),
    TRef.binary main_call0.v10 main_call0.c_3 main_call0.v11 (fun x v => Host.reduce IntOp.andi x v reducesTo_S1x1_S1_d1 h_S_),
    TRef.binary (.of main_arg1 : TRef sig ⟨S1000000x128, .f32⟩) main_call0.v5 main_call0.v12 (fun x i => Host.gather gather_S1000000x128_S1x1_S1x128_1_0_n_n_0_1_1128 x i),
    TRef.unary main_call0.v11 main_call0.v13 (broadcastInDim S1x128 ![0] bcast_S1_S1x128_0),
    TRef.nullary main_call0.cst (constant S_ .f32 0x7FC00000#32),
    TRef.unary main_call0.cst main_call0.v14 (broadcastInDim S1x128 ![] bcast_S_S1x128),
    TRef.ternary main_call0.v13 main_call0.v12 main_call0.v14 main_call0.v15 select,
    reshape main_v1 main_v2 rfl shapeCasts_S1x128_S128 ]

set_option maxRecDepth 1024 in
/-- @main is that straight line: the two functions' definitions unfolded at their calls, both sides are one chain
    of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., reshape_bufs_sub ..⟩

/-- The index as a one-entry vector, wrapped once (a million added) when it is negative. -/
def normIdx (w : (⟨S_, .i32⟩ : BufTy).Contents (Elt F)) : (⟨S1, .i32⟩ : BufTy).Contents (Elt F) :=
  select (cmpi .slt (broadcastInDim S1 ![] bcast_S_S1 w) (broadcastInDim S1 ![] bcast_S_S1 (constantI S_ 32 0#32)))
    (addi (broadcastInDim S1 ![] bcast_S_S1 w) (broadcastInDim S1 ![] bcast_S_S1 (constantI S_ 32 1000000#32)))
    (broadcastInDim S1 ![] bcast_S_S1 w)

/-- The normalised index as the 1 × 1 matrix of start indices the gather reads. -/
def startIdx (w : (⟨S_, .i32⟩ : BufTy).Contents (Elt F)) : (⟨S1x1, .i32⟩ : BufTy).Contents (Elt F) :=
  broadcastInDim S1x1 ![0] bcast_S1_S1x1_0 (normIdx (F := F) w)

/-- Whether the start index lies in `[0, 999999]`, as a one-entry vector of bits: the conjunction, over the one
    entry of the index vector, of `0 ≤ index` and `index ≤ 999999`. -/
def inRange (w : (⟨S_, .i32⟩ : BufTy).Contents (Elt F)) : (⟨S1, .i1⟩ : BufTy).Contents (Elt F) :=
  Host.reduce IntOp.andi
    (andi (cmpi .sge (startIdx (F := F) w) (broadcastInDim S1x1 ![] bcast_S_S1x1 (constantI S_ 32 0#32)))
      (cmpi .sle (startIdx (F := F) w) (broadcastInDim S1x1 ![1] bcast_S1_S1x1_1 (constantI S1 32 999999#32))))
    (constantI S_ 1 1#1) reducesTo_S1x1_S1_d1 h_S_

/-- The operations' composed term: the gathered row where the index is in range and the fill value elsewhere,
    read as a vector of 128 entries. -/
def refTerm (w : (⟨S_, .i32⟩ : BufTy).Contents (Elt F)) (t : (⟨S1000000x128, .f32⟩ : BufTy).Contents (Elt F)) :
    (⟨S128, .f32⟩ : BufTy).Contents (Elt F) :=
  fun i => shapeCast S128
    (select (broadcastInDim S1x128 ![0] bcast_S1_S1x128_0 (inRange (F := F) w))
      (Host.gather gather_S1000000x128_S1x1_S1x128_1_0_n_n_0_1_1128 t (startIdx (F := F) w))
      (broadcastInDim S1x128 ![] bcast_S_S1x128 (constant S_ .f32 0x7FC00000#32)))
    shapeCasts_S1x128_S128 i

attribute [local irreducible] Host.reduce Host.gather in
/-- The fold of the 24 operations at the result buffer is the composed term: each operation's result is rewritten
    to its function's value at the buffer it writes and to what was there at any other, and at these literal
    buffers the typed references' transports are the identity. The reduction and the gather are kept folded
    meanwhile (the equation never looks inside them). -/
theorem out_eq (V : Valuation τ sig (Elt F)) :
    after ops V (main_v2 : DevRef τ sig)
      = refTerm (F := F) (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On every device, for any float values, from any memory with zero counters: every weakly fair execution of
    @main terminates with the result at the operations' composed term of the arguments, the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
          = refTerm (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v2).trans (out_eq _), (h c main_arg0).trans (arg0_eq _),
      (h c main_arg1).trans (arg1_eq _)⟩)
    (run_seq scopedRefs_eq scopedSems_eq defs main (fun _ => ops) main_eq (fun _ => ops_sub) m ρ)

end Cert.Proof.Ref

end
-- ==== Proof.LibRowOps.lean ====
/-
  Reading the host scatter-add, the host gather and a rank-1 concatenate AT AN INDEX, at the ideal instance
  (floats are extended reals), for dimension numbers that scatter or gather WHOLE ROWS of a matrix (or single
  elements of a vector) at one column of signed start indices.  Everything is generic in the number of rows
  `N` of the operand, the number `E` of start indices, the row width `C` and the index bit width `w`.
-/
import Idealize.ShloMosaic.Lib.ValueIdx
import Idealize.ShloMosaic.Lib.Pipeline.Value

noncomputable section

open scoped BigOperators

namespace LibRowOps

open Idealize.ShloMosaic Idealize.ShloMosaic.ValueIdx

/-! ## Scatter-add of rows: operand `[N, C]`, indices `[E, 1]`, updates `[E, C]` -/

/-- The dimension numbers that scatter row `e` of the updates `[E, C]` to the operand row named by the start index
    `idx[e, 0]`: the updates' axis 1 is the window axis, the operand's axis 0 is inserted and is the one the start
    index addresses, and the index vector lies along axis 1 of the indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)

/-- On the row axis the window of update `u` starts at the signed start index `idx[u₀, 0]`. -/
theorem rowScatter_start0 (idx : IVec ⟨2, ![E, 1]⟩ w) (u : (⟨2, ![E, C]⟩ : Shape).Idx) :
    (rowScatterDims N E C wf).start u idx 0 = (idx (ix2 (u 0) 0)).toInt := by
  unfold ScatterDims.start
  rw [dif_pos (show (0 : Fin 2) ∈ (rowScatterDims N E C wf).scatterDimsToOperandDims from List.mem_singleton.mpr rfl)]
  have hsi : (rowScatterDims N E C wf).siIdx u ⟨List.idxOf (0 : Fin 2) (rowScatterDims N E C wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the column axis the window starts at `0`: no start index addresses it. -/
theorem rowScatter_start1 (idx : IVec ⟨2, ![E, 1]⟩ w) (u : (⟨2, ![E, C]⟩ : Shape).Idx) :
    (rowScatterDims N E C wf).start u idx 1 = 0 := by
  unfold ScatterDims.start
  rw [dif_neg (show (1 : Fin 2) ∉ (rowScatterDims N E C wf).scatterDimsToOperandDims from
    (by decide : (1 : Fin 2) ∉ ([0] : List (Fin 2))))]

/-- The row axis is inserted: its window coordinate is `0`. -/
theorem rowScatter_window0 (u : (⟨2, ![E, C]⟩ : Shape).Idx) : (rowScatterDims N E C wf).window u 0 = 0 := by
  unfold ScatterDims.window
  rw [dif_neg (show (0 : Fin 2) ∉ (rowScatterDims N E C wf).sKept by
    simp [ScatterDims.sKept, Shape.kept, List.mem_filter, List.mem_finRange])]

/-- The column axis is the window axis: its window coordinate is the update's column. -/
theorem rowScatter_window1 (u : (⟨2, ![E, C]⟩ : Shape).Idx) : (rowScatterDims N E C wf).window u 1 = (u 1).val := by
  unfold ScatterDims.window
  rw [dif_pos (show (1 : Fin 2) ∈ (rowScatterDims N E C wf).sKept by
    simp [ScatterDims.sKept, Shape.kept, List.mem_filter, List.mem_finRange])]
  rfl

end RowScatter

section RowScatterSum
variable {N E C w : Nat} (wf : ScatterDims.WF ⟨2, ![N, C]⟩ ⟨2, ![E, 1]⟩ ⟨2, ![E, C]⟩ [1] [0] [0] 1)

/-- Where update `u = (e, c)` lands: at operand element `(i, j)` exactly when its start index `idx[e, 0]`, read
    signed, is `i` and its column `c` is `j`; in particular an update whose start index is negative or at least
    `N` lands nowhere. -/
theorem rowScatter_resultIdx_eq_some (idx : IVec ⟨2, ![E, 1]⟩ w) (u : (⟨2, ![E, C]⟩ : Shape).Idx) (i : Fin N)
    (j : Fin C) :
    (rowScatterDims N E C wf).resultIdx? u idx = some (ix2 i j)
      ↔ (idx (ix2 (u 0) 0)).toInt = (i.val : ℤ) ∧ (u 1).val = j.val := by
  have hi := i.isLt
  have hj := j.isLt
  have hu1 : (u 1).val < C := (u 1).isLt
  unfold ScatterDims.resultIdx?
  split
  · next h =>
    rw [Option.some.injEq]
    constructor
    · intro hf
      have h0 : ((rowScatterDims N E C wf).start u idx 0 + ((rowScatterDims N E C wf).window u 0 : ℤ)).toNat = i.val :=
        congrArg (fun f => (f 0).val) hf
      have h1 : ((rowScatterDims N E C wf).start u idx 1 + ((rowScatterDims N E C wf).window u 1 : ℤ)).toNat = j.val :=
        congrArg (fun f => (f 1).val) hf
      have H0 := (h 0).1
      rw [rowScatter_start0, rowScatter_window0] at h0 H0
      rw [rowScatter_start1, rowScatter_window1] at h1
      constructor
      · omega
      · omega
    · rintro ⟨h0, h1⟩
      funext a
      refine Fin.ext ?_
      match a with
      | ⟨0, _⟩ =>
        show ((rowScatterDims N E C wf).start u idx 0 + ((rowScatterDims N E C wf).window u 0 : ℤ)).toNat = i.val
        rw [rowScatter_start0, rowScatter_window0]; omega
      | ⟨1, _⟩ =>
        show ((rowScatterDims N E C wf).start u idx 1 + ((rowScatterDims N E C wf).window u 1 : ℤ)).toNat = j.val
        rw [rowScatter_start1, rowScatter_window1]; omega
  · next h =>
    constructor
    · intro hf; cases hf
    · rintro ⟨h0, h1⟩
      exfalso; apply h; intro a
      match a with
      | ⟨0, _⟩ =>
        show 0 ≤ (rowScatterDims N E C wf).start u idx 0 + ((rowScatterDims N E C wf).window u 0 : ℤ)
          ∧ (rowScatterDims N E C wf).start u idx 0 + ((rowScatterDims N E C wf).window u 0 : ℤ) < (N : ℤ)
        rw [rowScatter_start0, rowScatter_window0]; omega
      | ⟨1, _⟩ =>
        show 0 ≤ (rowScatterDims N E C wf).start u idx 1 + ((rowScatterDims N E C wf).window u 1 : ℤ)
          ∧ (rowScatterDims N E C wf).start u idx 1 + ((rowScatterDims N E C wf).window u 1 : ℤ) < (C : ℤ)
        rw [rowScatter_start1, rowScatter_window1]; omega

/-- THE ROW SCATTER-ADD AT `(i, j)`: the operand's element plus the sum, over the updates `e` whose start index
    `idx[e, 0]` read signed is `i`, of the update's element `(e, j)`. An update whose start index is outside
    `[0, N)` contributes to no element. -/
theorem scatterAdd_rows_apply (x : (⟨2, ![N, C]⟩ : Shape).Idx → EReal) (idx : IVec ⟨2, ![E, 1]⟩ w)
    (upd : (⟨2, ![E, C]⟩ : Shape).Idx → EReal) (i : Fin N) (j : Fin C) :
    Ideal.hostScatterAdd (rowScatterDims N E C wf) x idx upd (ix2 i j)
      = x (ix2 i j) + ∑ e ∈ Finset.univ.filter (fun e : Fin E => (idx (ix2 e 0)).toInt = (i.val : ℤ)), upd (ix2 e j) := by
  unfold Ideal.hostScatterAdd
  congr 1
  have key : ∀ u : (⟨2, ![E, C]⟩ : Shape).Idx,
      u ∈ Finset.univ.filter (fun u => (rowScatterDims N E C wf).resultIdx? u idx = some (ix2 i j)) →
      u = ix2 (⟨(u 0).val, idx2_lt0 u⟩ : Fin E) j := by
    intro u hu
    have h1 := ((rowScatter_resultIdx_eq_some wf idx u i j).1 (Finset.mem_filter.1 hu).2).2
    have hj : u 1 = j := Fin.ext h1
    rw [← hj]
    exact eq_ix2 u
  refine Finset.sum_nbij' (fun u => (⟨(u 0).val, idx2_lt0 u⟩ : Fin E)) (fun e => ix2 e j) ?_ ?_ ?_ ?_ ?_
  · intro u hu
    exact Finset.mem_filter.2 ⟨Finset.mem_univ _,
      ((rowScatter_resultIdx_eq_some wf idx u i j).1 (Finset.mem_filter.1 hu).2).1⟩
  · intro e he
    exact Finset.mem_filter.2 ⟨Finset.mem_univ _,
      (rowScatter_resultIdx_eq_some wf idx (ix2 e j) i j).2 ⟨(Finset.mem_filter.1 he).2, rfl⟩⟩
  · intro u hu
    exact (key u hu).symm
  · intro e _; rfl
  · intro u hu
    exact congrArg upd (key u hu)

end RowScatterSum

/-! ## Scatter-add of elements: operand `[N]`, indices `[E, 1]`, updates `[E]` -/

/-- The dimension numbers that scatter element `e` of the updates `[E]` to the operand element named by the start
    index `idx[e, 0]`: no window axis, the operand's one axis inserted and addressed by the start index, the index
    vector along axis 1 of the indices. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section VecScatter
variable {N E w : Nat} (wf : ScatterDims.WF ⟨1, ![N]⟩ ⟨2, ![E, 1]⟩ ⟨1, ![E]⟩ [] [0] [0] 1)

/-- The window of update `u` starts at the signed start index `idx[u₀, 0]`. -/
theorem vecScatter_start0 (idx : IVec ⟨2, ![E, 1]⟩ w) (u : (⟨1, ![E]⟩ : Shape).Idx) :
    (vecScatterDims N E wf).start u idx 0 = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- The operand's one axis is inserted: its window coordinate is `0`. -/
theorem vecScatter_window0 (u : (⟨1, ![E]⟩ : Shape).Idx) : (vecScatterDims N E wf).window u 0 = 0 := by
  unfold ScatterDims.window
  rw [dif_neg (show (0 : Fin 1) ∉ (vecScatterDims N E wf).sKept by
    simp [ScatterDims.sKept, Shape.kept, List.mem_filter, List.mem_finRange])]

/-- Where update `u = (e)` lands: at operand element `i` exactly when its start index `idx[e, 0]`, read signed, is
    `i`; an update whose start index is negative or at least `N` lands nowhere. -/
theorem vecScatter_resultIdx_eq_some (idx : IVec ⟨2, ![E, 1]⟩ w) (u : (⟨1, ![E]⟩ : Shape).Idx) (i : Fin N) :
    (vecScatterDims N E wf).resultIdx? u idx = some (ix1 i) ↔ (idx (ix2 (u 0) 0)).toInt = (i.val : ℤ) := by
  have hi := i.isLt
  unfold ScatterDims.resultIdx?
  split
  · next h =>
    rw [Option.some.injEq]
    constructor
    · intro hf
      have h0 : ((vecScatterDims N E wf).start u idx 0 + ((vecScatterDims N E wf).window u 0 : ℤ)).toNat = i.val :=
        congrArg (fun f => (f 0).val) hf
      have H0 := (h 0).1
      rw [vecScatter_start0, vecScatter_window0] at h0 H0
      omega
    · intro h0
      funext a
      refine Fin.ext ?_
      match a with
      | ⟨0, _⟩ =>
        show ((vecScatterDims N E wf).start u idx 0 + ((vecScatterDims N E wf).window u 0 : ℤ)).toNat = i.val
        rw [vecScatter_start0, vecScatter_window0]; omega
  · next h =>
    constructor
    · intro hf; cases hf
    · intro h0
      exfalso; apply h; intro a
      match a with
      | ⟨0, _⟩ =>
        show 0 ≤ (vecScatterDims N E wf).start u idx 0 + ((vecScatterDims N E wf).window u 0 : ℤ)
          ∧ (vecScatterDims N E wf).start u idx 0 + ((vecScatterDims N E wf).window u 0 : ℤ) < (N : ℤ)
        rw [vecScatter_start0, vecScatter_window0]; omega

/-- THE ELEMENT SCATTER-ADD AT `i`: the operand's element plus the sum of the updates `e` whose start index
    `idx[e, 0]` read signed is `i`. An update whose start index is outside `[0, N)` contributes to no element. -/
theorem scatterAdd_vec_apply (x : (⟨1, ![N]⟩ : Shape).Idx → EReal) (idx : IVec ⟨2, ![E, 1]⟩ w)
    (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e 0)).toInt = (i.val : ℤ)), upd (ix1 e) := by
  unfold Ideal.hostScatterAdd
  congr 1
  refine Finset.sum_nbij' (fun u => (⟨(u 0).val, (u 0).isLt⟩ : Fin E)) (fun e => ix1 e) ?_ ?_ ?_ ?_ ?_
  · intro u hu
    exact Finset.mem_filter.2 ⟨Finset.mem_univ _,
      (vecScatter_resultIdx_eq_some wf idx u i).1 (Finset.mem_filter.1 hu).2⟩
  · intro e he
    exact Finset.mem_filter.2 ⟨Finset.mem_univ _,
      (vecScatter_resultIdx_eq_some wf idx (ix1 e) i).2 (Finset.mem_filter.1 he).2⟩
  · intro u _
    exact (eq_ix1 u).symm
  · intro e _; rfl
  · intro u _
    exact congrArg upd (eq_ix1 u)

end VecScatter

/-! ## Gather of rows: operand `[N, C]`, start indices `[E, 1]`, result `[E, C]` -/

/-- The dimension numbers that gather, for each start index `idx[e, 0]`, the whole operand row it names into row
    `e` of the result: the result's axis 1 is the offset axis, the operand's axis 0 is collapsed and addressed by
    the start index, the slice is `1 × C`, and the index vector lies along axis 1 of the indices. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER AT `(e, j)`: the operand at row `idx[e, 0]`, read signed and clamped into `[0, N − 1]`, and
    column `j`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGatherDims N E C wf) x idx (ix2 e j)
      = x (ix2 (⟨min (idx (ix2 e 0)).toInt.toNat (N - 1), by omega⟩ : Fin N) j) := by
  unfold Host.gather
  congr 1
  funext a
  refine Fin.ext ?_
  match a with
  | ⟨0, _⟩ =>
    show (rowGatherDims N E C wf).start (ix2 e j) idx 0 + (rowGatherDims N E C wf).batchCoord (ix2 e j) 0
      + (rowGatherDims N E C wf).offCoord (ix2 e j) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e j) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e j) idx 1 + (rowGatherDims N E C wf).batchCoord (ix2 e j) 1
      + (rowGatherDims N E C wf).offCoord (ix2 e j) 1 = j.val
    rw [GatherDims.batchCoord_eq_zero _ _ _ List.not_mem_nil]
    have hs : (rowGatherDims N E C wf).start (ix2 e j) idx 1 = 0 := by
      unfold GatherDims.start
      rw [dif_neg (show (1 : Fin 2) ∉ (rowGatherDims N E C wf).startIndexMap from
        (by decide : (1 : Fin 2) ∉ ([0] : List (Fin 2))))]
    have ho : (rowGatherDims N E C wf).offCoord (ix2 e j) 1 = j.val := by
      unfold GatherDims.offCoord
      rw [dif_pos ((GatherDims.mem_sKept _ _).mpr
        ⟨(by decide : (1 : Fin 2) ∉ ([0] : List (Fin 2))), List.not_mem_nil⟩)]
      rfl
    rw [hs, ho]
    omega

/-! ## Gather of elements: operand `[N]`, start indices `[E, 1]`, result `[E]` -/

/-- The dimension numbers that gather, for each start index `idx[e, 0]`, the operand element it names into element
    `e` of the result: no offset axis, the operand's one axis collapsed and addressed by the start index, the slice
    one element, the index vector along axis 1 of the indices. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER AT `e`: the operand at `idx[e, 0]`, read signed and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 (⟨min (idx (ix2 e 0)).toInt.toNat (N - 1), by omega⟩ : Fin N)) := by
  unfold Host.gather
  congr 1
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N E wf).startIndexMap from List.mem_singleton.mpr rfl)]
    have hsi : (vecGatherDims N E wf).siIdx (ix1 e) ⟨List.idxOf (0 : Fin 1) (vecGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

/-! ## A rank-1 concatenate: `a : [A]` followed by `b : [B]`, read at a position -/

/-- The two extents of a rank-1 concatenation add up to the result's. -/
theorem concat1_sum {A B T : Nat}
    (h : Shape.Concatenates [(⟨1, ![A]⟩ : Shape), ⟨1, ![B]⟩] ⟨1, ![T]⟩ 0) : A + B = T := by
  have e : A + (B + 0) = T := h.2.2
  omega

/-- A position below the first extent reads the first piece at that position. -/
theorem concat1_apply_left {α : Type} {A B T : Nat} (a : (⟨1, ![A]⟩ : Shape).Idx → α)
    (b : (⟨1, ![B]⟩ : Shape).Idx → α) (h : Shape.Concatenates [(⟨1, ![A]⟩ : Shape), ⟨1, ![B]⟩] ⟨1, ![T]⟩ 0)
    (k : Fin T) (hk : k.val < A) :
    concatenate (⟨1, ![T]⟩ : Shape) 0 [⟨⟨1, ![A]⟩, a⟩, ⟨⟨1, ![B]⟩, b⟩] h (ix1 k) = a (ix1 ⟨k.val, hk⟩) := by
  refine concatenate_pair_apply_left (t := ⟨1, ![T]⟩) (s₁ := ⟨1, ![A]⟩) (s₂ := ⟨1, ![B]⟩) 0 a b h (ix1 k) rfl
    (ix1 ⟨k.val, hk⟩) ?_
  intro c
  match c with
  | ⟨0, _⟩ => rfl

/-- A position at or past the first extent reads the second piece at that position less the first extent. -/
theorem concat1_apply_right {α : Type} {A B T : Nat} (a : (⟨1, ![A]⟩ : Shape).Idx → α)
    (b : (⟨1, ![B]⟩ : Shape).Idx → α) (h : Shape.Concatenates [(⟨1, ![A]⟩ : Shape), ⟨1, ![B]⟩] ⟨1, ![T]⟩ 0)
    (k : Fin T) (hk : A ≤ k.val) :
    concatenate (⟨1, ![T]⟩ : Shape) 0 [⟨⟨1, ![A]⟩, a⟩, ⟨⟨1, ![B]⟩, b⟩] h (ix1 k)
      = b (ix1 ⟨k.val - A, by have := concat1_sum h; have := k.isLt; omega⟩) := by
  have hB : k.val - A < B := by have := concat1_sum h; have := k.isLt; omega
  refine concatenate_pair_apply_right (t := ⟨1, ![T]⟩) (s₁ := ⟨1, ![A]⟩) (s₂ := ⟨1, ![B]⟩) 0 a b h (ix1 k) rfl rfl
    (ix1 ⟨k.val - A, hB⟩) ?_ ?_
  · intro c hc
    exact absurd (Subsingleton.elim _ _) hc
  · show (k.val - A) + A = k.val
    omega

/-- THE RANK-1 CONCATENATE AT POSITION `k`: the first piece at `k` when `k` is below its extent `A`, else the
    second piece at `k − A`. -/
theorem concat1_apply {α : Type} {A B T : Nat} (a : (⟨1, ![A]⟩ : Shape).Idx → α)
    (b : (⟨1, ![B]⟩ : Shape).Idx → α) (h : Shape.Concatenates [(⟨1, ![A]⟩ : Shape), ⟨1, ![B]⟩] ⟨1, ![T]⟩ 0)
    (k : Fin T) :
    concatenate (⟨1, ![T]⟩ : Shape) 0 [⟨⟨1, ![A]⟩, a⟩, ⟨⟨1, ![B]⟩, b⟩] h (ix1 k)
      = if hk : k.val < A then a (ix1 ⟨k.val, hk⟩)
        else b (ix1 ⟨k.val - A, by have := concat1_sum h; have := k.isLt; omega⟩) := by
  by_cases hk : k.val < A
  · rw [dif_pos hk]; exact concat1_apply_left a b h k hk
  · rw [dif_neg hk]; exact concat1_apply_right a b h k (Nat.le_of_not_lt hk)

end LibRowOps

end
-- ==== Proof.RefValue.lean ====
/-
  The value of the reference at the index 777. With that index every integer stage is a constant vector: 777 is
  not negative, so the normalising select keeps 777 and not 777 + 1000000; 0 ≤ 777 ≤ 999999, so the in-range bit is
  1 and the last select keeps the gathered row and never the fill value; the gather clamps min(777, 999999) = 777
  and reads table entry (777, j); the reshape reads entry (0, j) of the 1 × 128 matrix at j.  Hence the composed term
  of the run is row 777 of the table, and the run ends with that row in the result buffer.
-/
import proofs.«202049_g85220741087307_cont_9to1_m_1159_10_alg».proof.Proof.RefRun
import proofs.«202049_g85220741087307_cont_9to1_m_1159_10_alg».proof.Proof.Spec
import proofs.«202049_g85220741087307_cont_9to1_m_1159_10_alg».proof.Proof.LibRowOps
import Idealize.ShloMosaic.Lib.Pipeline.Value
import Idealize.ShloMosaic.PureOps.Reduce

noncomputable section

namespace Cert.Proof.Ref

open Cert.ReferenceIdeal Cert.ReferenceIdeal.Gen Idealize.ShloMosaic Idealize.ShloMosaic.TcCoe Idealize.SL.Sem
  Idealize.ShloMosaic.StableHlo Idealize.ShloMosaic.ValueIdx

variable {F : FTy → Type} [FloatOps F]

/-- The index 777 as the scalar the program receives. -/
abbrev w777 : (⟨S_, .i32⟩ : BufTy).Contents (Elt F) := fun _ => 777#32

/-- 777 is not negative: the normalised index is 777 itself. -/
theorem normIdx_777 : normIdx (F := F) (w777 (F := F)) = fun _ => 777#32 := by
  funext i
  show Scalar.select (IntOp.cmpi .slt 777#32 0#32) (IntOp.addi 777#32 1000000#32) 777#32 = 777#32
  decide

/-- The gather's 1 × 1 matrix of start indices holds 777. -/
theorem startIdx_777 : startIdx (F := F) (w777 (F := F)) = fun _ => 777#32 := by
  unfold startIdx
  rw [normIdx_777]
  rfl

/-- A conjunction of ones from one is one, however many there are. -/
theorem foldl_andi_ones {ι : Type} (l : List ι) : l.foldl (fun r _ => IntOp.andi r 1#1) 1#1 = 1#1 := by
  induction l with
  | nil => rfl
  | cons a l ih =>
    rw [List.foldl_cons, (by decide : IntOp.andi 1#1 1#1 = 1#1)]
    exact ih

/-- 0 ≤ 777 ≤ 999999: the in-range bit is 1. -/
theorem inRange_777 : inRange (F := F) (w777 (F := F)) = fun _ => 1#1 := by
  unfold inRange
  rw [startIdx_777]
  have hx : andi (cmpi .sge (fun _ => 777#32 : IVec S1x1 32) (broadcastInDim S1x1 ![] bcast_S_S1x1 (constantI S_ 32 0#32)))
      (cmpi .sle (fun _ => 777#32 : IVec S1x1 32) (broadcastInDim S1x1 ![1] bcast_S1_S1x1_1 (constantI S1 32 999999#32)))
      = fun _ => 1#1 := by
    funext i
    show IntOp.andi (IntOp.cmpi .sge 777#32 0#32) (IntOp.cmpi .sle 777#32 999999#32) = 1#1
    decide
  rw [hx]
  funext j
  rw [Host.reduce_eq_foldl]
  exact foldl_andi_ones _

/-- The reference's gather is the gather of whole rows of a million-row table at one start index. -/
theorem gatherDims_eq : gather_S1000000x128_S1x1_S1x128_1_0_n_n_0_1_1128
    = LibRowOps.rowGatherDims 1000000 1 128 gather_S1000000x128_S1x1_S1x128_1_0_n_n_0_1_1128_wf := rfl

/-- The row the clamped start index 777 names is row 777. -/
theorem clamp_777 : min ((777#32 : BitVec 32).toInt.toNat) (1000000 - 1) = 777 := by decide

/-- The composed term at the index 777 is row 777 of the table. -/
theorem refTerm_777 (t : (⟨S1000000x128, .f32⟩ : BufTy).Contents (Elt F)) :
    refTerm (F := F) (w777 (F := F)) t = Spec.row777 t := by
  funext i
  obtain ⟨c, rfl⟩ : ∃ c : Fin 128, i = ix1 c := ⟨i 0, eq_ix1 i⟩
  unfold refTerm
  rw [shapeCast_apply _ _ (ix1 c) (ix2 (0 : Fin 1) c) (by
    rw [Shape.rowMajor_val_two, Shape.rowMajor_val_one]
    show (0 : ℕ) * 128 + c.val = c.val
    omega)]
  rw [select_apply, inRange_777]
  show Scalar.select 1#1 _ _ = _
  rw [select_one, startIdx_777, gatherDims_eq, LibRowOps.gather_rows_apply (by decide)]
  exact congrArg (fun r : Fin 1000000 => t (ix2 r c)) (Fin.ext clamp_777)

/-- THE REFERENCE'S RUN AT THE INDEX 777: from any memory whose index argument holds 777, every weakly fair execution
    of @main terminates, the result buffer holds row 777 of the table argument, and both arguments are unchanged. -/
theorem run
    (m : (ℓ : Loc Cert.ReferenceIdeal.nD Cert.ReferenceIdeal.τ Cert.ReferenceIdeal.sig) → Buf (Elt Ideal) ℓ) (g : Dev Cert.ReferenceIdeal.nD → PrngReg)
    (hidx : ∀ c : Dev Cert.ReferenceIdeal.nD, m ((c.tc : Thread Cert.ReferenceIdeal.nD Cert.ReferenceIdeal.τ).loc Cert.ReferenceIdeal.main_arg0) = fun _ => 777#32) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v2)
            = Cert.Proof.Spec.row777 (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run defs _ _).mono (fun _ h c => ⟨(h c).1.trans
      ((congrArg (fun w => refTerm (F := Ideal) w (m ((c.tc : Thread nD τ).loc main_arg1))) (hidx c)).trans (refTerm_777 _)),
      (h c).2.1, (h c).2.2⟩)
    (run_term m g)

end Cert.Proof.Ref

end
-- ==== Proof.lean ====
/- The lookup kernel against its reference. The kernel hands the one-entry index array and the table to a SparseCore's
   sequencer, which copies the index into its scalar memory, reads the word and copies the table row the word names into
   the result; the reference takes that row with a gather whose start index is first normalised (a negative index would
   wrap, an index out of range would give a fill value). The precondition pins the index to 777, so neither branch of the
   reference's normalisation is taken, the gather's clamp leaves 777, and both programs end with entry j of the result
   equal to entry (777, j) of the table (`Spec.row777`): a pure copy, equal at every float instance, in particular on the
   extended reals. The three frames: the two kernel programs by the launch theorem for SparseCore programs, over all the
   device's threads (Proof/BitsRun.lean at the word-level instance, Proof/IdealRun.lean at the ideal one: the body's two
   copies and waits, the row slice inside the table because the word is 777); the reference's by its run with the result's
   value dropped (Proof/RefRun.lean, Proof/RefValue.lean). The idealization rewrote nothing, so what it preserves is
   nothing to prove. -/
import proofs.«202049_g85220741087307_cont_9to1_m_1159_10_alg».proof.Defs
import proofs.«202049_g85220741087307_cont_9to1_m_1159_10_alg».proof.Proof.IdealRun
import proofs.«202049_g85220741087307_cont_9to1_m_1159_10_alg».proof.Proof.BitsRun
import proofs.«202049_g85220741087307_cont_9to1_m_1159_10_alg».proof.Proof.RefValue
import proofs.«202049_g85220741087307_cont_9to1_m_1159_10_alg».proof.Proof.PreIdx
import proofs.«202049_g85220741087307_cont_9to1_m_1159_10_alg».proof.Proof.Gen.Kernel
import proofs.«202049_g85220741087307_cont_9to1_m_1159_10_alg».proof.Proof.Gen.Kernel.Skeleton
import proofs.«202049_g85220741087307_cont_9to1_m_1159_10_alg».proof.Proof.Gen.KernelIdeal
import proofs.«202049_g85220741087307_cont_9to1_m_1159_10_alg».proof.Proof.Gen.KernelIdeal.Skeleton
import proofs.«202049_g85220741087307_cont_9to1_m_1159_10_alg».proof.Proof.Gen.ReferenceIdeal
import proofs.«202049_g85220741087307_cont_9to1_m_1159_10_alg».proof.Proof.Gen.Pre_input_domain
import Idealize.ShloMosaic.Adequacy
import Idealize.ShloMosaic.Init

noncomputable section

namespace Cert.Proof

open Idealize.ShloMosaic Idealize.SL.Sem

/-- The reference runs to the end and leaves its arguments unchanged: its run with the result's value dropped; the
    precondition gives the run its hypothesis that the index is 777. -/
theorem frame_ref : Cert.frame_ReferenceIdeal := fun m ρ hpre =>
  (θ_run Cert.ReferenceIdeal.defs _ _).mono (fun _ h c => (h c).2)
    (Cert.Proof.Ref.run m ρ (fun c => Cert.Proof.PreIdx.idx_eq (F := Ideal) _ _ (hpre c)))

/-- From memories agreeing on the arguments both programs end with the result at row 777 of the table: the kernel's
    run names it of its own table, the reference's of its own, and the tables agree. -/
theorem algebraic : Cert.algebraic_KernelIdeal_ReferenceIdeal := by
  intro m ρ m' ρ' hpre hagree
  have hw := LookupIdeal.idx_of_pre m hpre
  refine ⟨fun c => LookupIdeal.outVal m c, LookupIdeal.run_main (F := Ideal) m ρ hw, ?_⟩
  refine (θ_run Cert.ReferenceIdeal.defs _ _).mono (fun _ h c => ⟨(h c).1.trans ?_, (h c).2⟩)
    (Cert.Proof.Ref.run m' ρ' (fun c => by rw [(hagree c).1]; exact hw c))
  rw [(hagree c).2]

theorem claim : Cert.Claim := ⟨Cert.Kernel.Gen.facts, Cert.KernelIdeal.Gen.facts, Cert.ReferenceIdeal.Gen.facts, Cert.Pre_input_domain.Gen.facts,
  LookupBits.frame, LookupIdeal.frame, frame_ref, trivial, algebraic⟩

end Cert.Proof

end
